-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S50000x256 .f32) (main_arg1 : FVec F S256x256 .f32) (main_arg2 : FVec F S256 .f32) (main_arg3 : IVec S800000 32) (main_arg4 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S2000x256 : Shape := ⟨2, ![2000, 256]⟩
abbrev S2000x1 : Shape := ⟨2, ![2000, 1]⟩
abbrev S1x256 : Shape := ⟨2, ![1, 256]⟩

abbrev nBuf : Space → Nat
  | .hbm => 74
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S_, .i32⟩
  | .hbm, ⟨8, _⟩ => ⟨S50000, .i32⟩
  | .hbm, ⟨9, _⟩ => ⟨S800000x1, .i32⟩
  | .hbm, ⟨10, _⟩ => ⟨S50000, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x256, .f32⟩
  | .hbm, ⟨21, _⟩ => ⟨S50000x256, .f32⟩
  | .hbm, ⟨22, _⟩ => ⟨S50000x256, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x256, .bf16⟩
  | .hbm, ⟨32, _⟩ => ⟨S800000x256, .f32⟩
  | .hbm, ⟨33, _⟩ => ⟨S_, .f32⟩
  | .hbm, ⟨34, _⟩ => ⟨S50000x256, .f32⟩
  | .hbm, ⟨35, _⟩ => ⟨S800000x1, .i32⟩
  | .hbm, ⟨36, _⟩ => ⟨S50000x256, .f32⟩
  | .hbm, ⟨37, _⟩ => ⟨S50000x256, .f32⟩
  | .hbm, ⟨38, _⟩ => ⟨S50000x256, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .bf16⟩
  | .hbm, ⟨48, _⟩ => ⟨S800000x256, .f32⟩
  | .hbm, ⟨49, _⟩ => ⟨S_, .f32⟩
  | .hbm, ⟨50, _⟩ => ⟨S50000x256, .f32⟩
  | .hbm, ⟨51, _⟩ => ⟨S800000x1, .i32⟩
  | .hbm, ⟨52, _⟩ => ⟨S50000x256, .f32⟩
  | .hbm, ⟨53, _⟩ => ⟨S50000x256, .f32⟩
  | .hbm, ⟨54, _⟩ => ⟨S50000x256, .bf16⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000x256, .bf16⟩
  | .hbm, ⟨64, _⟩ => ⟨S800000x256, .f32⟩
  | .hbm, ⟨65, _⟩ => ⟨S_, .f32⟩
  | .hbm, ⟨66, _⟩ => ⟨S50000x256, .f32⟩
  | .hbm, ⟨67, _⟩ => ⟨S800000x1, .i32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S256, .f32⟩
  | .hbm, ⟨72, _⟩ => ⟨S256, .f32⟩
  | .hbm, ⟨73, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x1, .f32⟩
  | .local _ .vmem, ⟨3, _⟩ => ⟨S2000x1, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .bf16⟩
  | .local _ .vmem, ⟨9, _⟩ => ⟨S2000x256, .bf16⟩
  | .local _ .vmem, ⟨10, _⟩ => ⟨S2000x256, .f32⟩
  | .local _ .vmem, ⟨11, _⟩ => ⟨S2000x256, .f32⟩
  | .local _ .vmem, ⟨12, _⟩ => ⟨S2000x1, .f32⟩
  | .local _ .vmem, ⟨13, _⟩ => ⟨S2000x1, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .bf16⟩
  | .local _ .vmem, ⟨19, _⟩ => ⟨S2000x256, .bf16⟩
  | .local _ .vmem, ⟨20, _⟩ => ⟨S2000x256, .f32⟩
  | .local _ .vmem, ⟨21, _⟩ => ⟨S2000x256, .f32⟩
  | .local _ .vmem, ⟨22, _⟩ => ⟨S2000x1, .f32⟩
  | .local _ .vmem, ⟨23, _⟩ => ⟨S2000x1, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S256, .f32⟩
  | .local _ .vmem, ⟨32, _⟩ => ⟨S2000x256, .f32⟩
  | .local _ .vmem, ⟨33, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bitsLt_bf16_f32 : FTy.bits .bf16 < FTy.bits .f32
  bcast_S_S50000x256 : S_.BroadcastsInDim S50000x256 (![] : Fin 0 → Fin S50000x256.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  packedbf16_S2000x256_S2000x256_0_0 : (Rect.unit (s := S2000x256) ![0, 0] S2000x256.size inb_S2000x256_S2000x256_0_0).PackedRows (EltTy.packing .bf16)
  bcast_S_S256 : S_.BroadcastsInDim S256 (![] : Fin 0 → Fin S256.rank)
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S2000x256 : S1x256.Broadcasts S2000x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S50000x256.size a
  hwx0_4 : ∀ i : grid0.Coords, EltTy.bits .bf16 = 32 ∨ (Rect.block (s := S50000x256) S2000x256.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .bf16 = 32 ∨ (Rect.block (s := S50000x256) S2000x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256.size a ≤ S256.size a
  hwx3_2 : ∀ i : grid3.Coords, EltTy.bits .f32 = 32 ∨ (Rect.block (s := S256) S256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v23_1) S2000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23_0) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v35_0) S2000x256.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35_1) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35_0) S2000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v47) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v47) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x256 : Shape := ⟨2, ![1, 256]⟩
abbrev S800000x256 : Shape := ⟨2, ![800000, 256]⟩

abbrev nBuf : Space → Nat
  | .hbm => 101
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256, .f32⟩
  | .hbm, ⟨3, _⟩ => ⟨S800000, .i32⟩
  | .hbm, ⟨4, _⟩ => ⟨S800000, .i32⟩
  | .hbm, ⟨5, _⟩ => ⟨S_, .f32⟩
  | .hbm, ⟨6, _⟩ => ⟨S800000, .f32⟩
  | .hbm, ⟨7, _⟩ => ⟨S_, .f32⟩
  | .hbm, ⟨8, _⟩ => ⟨S50000, .f32⟩
  | .hbm, ⟨9, _⟩ => ⟨S800000x1, .i32⟩
  | .hbm, ⟨10, _⟩ => ⟨S50000, .f32⟩
  | .hbm, ⟨11, _⟩ => ⟨S_, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x256, .f32⟩
  | .hbm, ⟨20, _⟩ => ⟨S1x256, .f32⟩
  | .hbm, ⟨21, _⟩ => ⟨S50000x256, .f32⟩
  | .hbm, ⟨22, _⟩ => ⟨S50000x256, .f32⟩
  | .hbm, ⟨23, _⟩ => ⟨S50000x256, .f32⟩
  | .hbm, ⟨24, _⟩ => ⟨S50000x256, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x256, .f32⟩
  | .hbm, ⟨34, _⟩ => ⟨S_, .f32⟩
  | .hbm, ⟨35, _⟩ => ⟨S50000x256, .f32⟩
  | .hbm, ⟨36, _⟩ => ⟨S800000x1, .i32⟩
  | .hbm, ⟨37, _⟩ => ⟨S50000x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S1x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S50000x256, .f32⟩
  | .hbm, ⟨66, _⟩ => ⟨S1x256, .f32⟩
  | .hbm, ⟨67, _⟩ => ⟨S50000x256, .f32⟩
  | .hbm, ⟨68, _⟩ => ⟨S50000x256, .f32⟩
  | .hbm, ⟨69, _⟩ => ⟨S_, .f32⟩
  | .hbm, ⟨70, _⟩ => ⟨S50000x256, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000x256, .f32⟩
  | .hbm, ⟨84, _⟩ => ⟨S_, .f32⟩
  | .hbm, ⟨85, _⟩ => ⟨S50000x256, .f32⟩
  | .hbm, ⟨86, _⟩ => ⟨S800000x1, .i32⟩
  | .hbm, ⟨87, _⟩ => ⟨S50000x256, .f32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S1x256, .f32⟩
  | .hbm, ⟨92, _⟩ => ⟨S50000x256, .f32⟩
  | .hbm, ⟨93, _⟩ => ⟨S50000x256, .f32⟩
  | .hbm, ⟨94, _⟩ => ⟨S_, .f32⟩
  | .hbm, ⟨95, _⟩ => ⟨S50000x256, .f32⟩
  | .hbm, ⟨96, _⟩ => ⟨S50000x256, .f32⟩
  | .hbm, ⟨97, _⟩ => ⟨S50000x256, .f32⟩
  | .hbm, ⟨98, _⟩ => ⟨S_, .f32⟩
  | .hbm, ⟨99, _⟩ => ⟨S50000x256, .f32⟩
  | .hbm, ⟨100, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
import proofs.«106384_j83562883711802_2_alg».proof.Proof.Gen.KernelIdeal.Frame

/-!
The blocked program's run with its result named.

Every weakly fair execution terminates without a fault; the arguments end as launched, and the result buffer
ends at the contents the last step's write-backs leave. This is the frame run of the four steps among the
host stretches, read once more at the result buffer.
-/

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_result : θ_run defs (onTc (τ := τ) (main (F := F))) ⟨m, fun _ => 0, ρ⟩ (fun r => ∀ c : Dev nD,
      r.2.mem ((c.tc : Thread nD τ).loc main_v50) = W10 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v50 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c)⟩)

end Cert.KernelIdeal.KernelRun

end
-- ==== Proof.HopAlgebra.lean ====
import Idealize.ShloMosaic.PureOps.Ideal
import Idealize.ShloMosaic.PureOps.Ideal.Laws

/-!
The algebra that joins the two programs.

One program multiplies the accumulated features `f + h₁ + h₂ + h₃` by the weight matrix once and adds
four times the bias; the other multiplies each summand by the weights, adds the bias to each product, and
sums. Over the real numbers these agree by distributivity of the product over the sum. On the extended
reals distributivity needs every entry to be a real number, which is why the statement asks for it.
-/

noncomputable section

namespace Cert.HopAlgebra

open Idealize.ShloMosaic

/-- The single-precision word of `1.0` is the number 1. -/
theorem word_one : Ideal.ofBits .f32 0x3F800000#32 = 1 := by
  simp [Ideal.ofBits, Ideal.ieee, -EReal.coe_mul]; norm_num

/-- The single-precision word of `4.0` is the real number 4. -/
theorem word_four : Ideal.ofBits .f32 0x40800000#32 = ((4 : ℝ) : EReal) := by
  simp [Ideal.ofBits, Ideal.ieee, -EReal.coe_mul]; norm_num

/-- The single-precision word of `-0.5` is the real number -1/2. -/
theorem word_neg_half : Ideal.ofBits .f32 0xBF000000#32 = ((-(1 / 2) : ℝ) : EReal) := by
  simp [Ideal.ofBits, Ideal.ieee, -EReal.coe_mul]; norm_num

/-- The coercion of the reals into the extended reals commutes with finite sums. -/
theorem coe_sum {ι : Type*} (s : Finset ι) (g : ι → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of real numbers, taken in the extended reals, is a real number. -/
theorem sum_real {ι : Type*} (s : Finset ι) (G : ι → EReal) (h : ∀ k ∈ s, ∃ r : ℝ, G k = r) :
    ∃ r : ℝ, ∑ k ∈ s, G k = r := by
  classical
  induction s using Finset.induction_on with
  | empty => exact ⟨0, by simp⟩
  | insert a s ha ih =>
    obtain ⟨r, hr⟩ := ih (fun k hk => h k (Finset.mem_insert_of_mem hk))
    obtain ⟨q, hq⟩ := h a (Finset.mem_insert_self a s)
    exact ⟨q + r, by rw [Finset.sum_insert ha, hr, hq, EReal.coe_add]⟩

/-- One weight product of the accumulated features plus four biases is the sum of the four
    weight products, each with its own bias: distributivity, for real entries. -/
theorem accumulated_product {ι : Type*} [Fintype ι] (Fe H1 H2 H3 W : ι → EReal) (B : EReal)
    (hF : ∀ k, ∃ r : ℝ, Fe k = r) (h1 : ∀ k, ∃ r : ℝ, H1 k = r) (h2 : ∀ k, ∃ r : ℝ, H2 k = r)
    (h3 : ∀ k, ∃ r : ℝ, H3 k = r) (hW : ∀ k, ∃ r : ℝ, W k = r) (hB : ∃ r : ℝ, B = r) :
    (∑ k, (((Fe k + H1 k * 1) + H2 k * 1) + H3 k * 1) * W k) + B * ((4 : ℝ) : EReal)
      = ((((∑ k, Fe k * W k) + B) + ((∑ k, H1 k * W k) + B) * 1) + ((∑ k, H2 k * W k) + B) * 1)
          + ((∑ k, H3 k * W k) + B) * 1 := by
  choose f hf using hF
  choose a1 ha1 using h1
  choose a2 ha2 using h2
  choose a3 ha3 using h3
  choose w hw using hW
  obtain ⟨b, rfl⟩ := hB
  simp only [mul_one, hf, ha1, ha2, ha3, hw, ← EReal.coe_add, ← EReal.coe_mul, ← coe_sum]
  congr 1
  simp only [add_mul, Finset.sum_add_distrib]
  ring

end Cert.HopAlgebra

end
-- ==== Proof.HopSpec.lean ====
import Idealize.ShloMosaic.PureOps.Ideal
import Idealize.ShloMosaic.PureOps.Ideal.Laws
import Idealize.ShloMosaic.Lib.ValueIdx
import proofs.«106384_j83562883711802_2_alg».proof.Proof.HopAlgebra

/-!
What both programs compute, as functions of whole arrays read index by index.

A node-feature array has a row per node (50000) and 256 columns; a column array has one entry per node.
`rowScale a n` multiplies row `r` of `a` by `n r`. One propagation step aggregates the scaled features along
the edges (an operation both programs spell the same way, kept abstract here), scales the result by the
node's factor, and adds it to a running sum. The last step multiplies by the weight matrix and adds the bias:
once, after summing, in one program; per summand in the other.
-/

noncomputable section

namespace Cert.HopSpec

open Idealize.ShloMosaic Idealize.ShloMosaic.ValueIdx

/-- Node features: 50000 rows of 256. -/
abbrev SN : Shape := ⟨2, ![50000, 256]⟩
/-- One entry per node, as a column. -/
abbrev SC : Shape := ⟨2, ![50000, 1]⟩
/-- The weight matrix. -/
abbrev SW : Shape := ⟨2, ![256, 256]⟩
/-- The bias vector. -/
abbrev SB : Shape := ⟨1, ![256]⟩

/-- The column entry of the row an index lies in. -/
abbrev rowOf (i : SN.Idx) : SC.Idx := fun a => match a with
  | ⟨0, _⟩ => ⟨(i 0).val, (i 0).isLt⟩
  | ⟨1, _⟩ => ⟨0, Nat.one_pos⟩

/-- The bias entry of the column an index lies in. -/
abbrev colOf (i : SN.Idx) : SB.Idx := fun a => match a with
  | ⟨0, _⟩ => ⟨(i 1).val, (i 1).isLt⟩

/-- Entry `k` of the row of `i`. -/
abbrev inRow (i : SN.Idx) (k : Fin 256) : SN.Idx := fun a => match a with
  | ⟨0, _⟩ => ⟨(i 0).val, (i 0).isLt⟩
  | ⟨1, _⟩ => ⟨k.val, k.isLt⟩

/-- Entry `k` of the weight column of `i`. -/
abbrev inCol (i : SN.Idx) (k : Fin 256) : SW.Idx := fun a => match a with
  | ⟨0, _⟩ => ⟨k.val, k.isLt⟩
  | ⟨1, _⟩ => ⟨(i 1).val, (i 1).isLt⟩

/-- Every row of `a` times that row's factor. -/
def rowScale (a : SN.Idx → EReal) (n : SC.Idx → EReal) : SN.Idx → EReal :=
  fun i => a i * n (rowOf i)

/-- The running sum after one more hop: the sum so far plus the hop's features times the hop's scale 1.0. -/
def accum (s h : SN.Idx → EReal) : SN.Idx → EReal :=
  fun i => s i + h i * Ideal.ofBits .f32 0x3F800000#32

/-- The product with the weight matrix, entry by entry. -/
def timesW (a : SN.Idx → EReal) (W : SW.Idx → EReal) : SN.Idx → EReal :=
  fun i => ∑ k : Fin 256, a (inRow i k) * W (inCol i k)

/-- The product with the weights plus a bias per column, rectified. -/
def biased (s : SN.Idx → EReal) (W : SW.Idx → EReal) (b4 : SB.Idx → EReal) : SN.Idx → EReal :=
  fun i => max (timesW s W i + b4 (colOf i)) (Ideal.ofBits .f32 0x00000000#32)

/-- One product of the accumulated features, four biases, then the rectifier. -/
def fused (f h1 h2 h3 : SN.Idx → EReal) (W : SW.Idx → EReal) (b : SB.Idx → EReal) : SN.Idx → EReal :=
  fun i => max (timesW (accum (accum (accum f h1) h2) h3) W i
      + b (colOf i) * Ideal.ofBits .f32 0x40800000#32) (Ideal.ofBits .f32 0x00000000#32)

/-- A product and a bias per summand, summed, then the rectifier. -/
def perHop (f h1 h2 h3 : SN.Idx → EReal) (W : SW.Idx → EReal) (b : SB.Idx → EReal) : SN.Idx → EReal :=
  fun i => max ((((timesW f W i + b (colOf i))
        + (timesW h1 W i + b (colOf i)) * Ideal.ofBits .f32 0x3F800000#32)
        + (timesW h2 W i + b (colOf i)) * Ideal.ofBits .f32 0x3F800000#32)
        + (timesW h3 W i + b (colOf i)) * Ideal.ofBits .f32 0x3F800000#32) (Ideal.ofBits .f32 0x00000000#32)

/-- The fused form is the rectified product of the accumulated features with the bias scaled by four. -/
theorem fused_eq_biased (f h1 h2 h3 : SN.Idx → EReal) (W : SW.Idx → EReal) (b : SB.Idx → EReal) :
    fused f h1 h2 h3 W b
      = biased (accum (accum (accum f h1) h2) h3) W (fun j => b j * Ideal.ofBits .f32 0x40800000#32) := rfl

/-- Every entry of an array is a real number. -/
def AllReal {S : Shape} (a : S.Idx → EReal) : Prop := ∀ i, ∃ r : ℝ, a i = r

/-- The two forms agree when every entry involved is a real number. -/
theorem fused_eq_perHop (f h1 h2 h3 : SN.Idx → EReal) (W : SW.Idx → EReal) (b : SB.Idx → EReal)
    (hf : AllReal f) (hh1 : AllReal h1) (hh2 : AllReal h2) (hh3 : AllReal h3) (hW : AllReal W) (hb : AllReal b) :
    fused f h1 h2 h3 W b = perHop f h1 h2 h3 W b := by
  funext i
  unfold fused perHop timesW accum
  rw [Cert.HopAlgebra.word_four, Cert.HopAlgebra.word_one]
  congr 1
  exact Cert.HopAlgebra.accumulated_product (fun k => f (inRow i k)) (fun k => h1 (inRow i k))
    (fun k => h2 (inRow i k)) (fun k => h3 (inRow i k)) (fun k => W (inCol i k)) (b (colOf i))
    (fun k => hf _) (fun k => hh1 _) (fun k => hh2 _) (fun k => hh3 _) (fun k => hW _) (hb _)

/-- Scaling the rows of a real array by real factors gives a real array. -/
theorem rowScale_real {a : SN.Idx → EReal} {n : SC.Idx → EReal} (ha : AllReal a) (hn : AllReal n) :
    AllReal (rowScale a n) := fun i => by
  obtain ⟨x, hx⟩ := ha i
  obtain ⟨y, hy⟩ := hn (rowOf i)
  exact ⟨x * y, by unfold rowScale; rw [hx, hy, EReal.coe_mul]⟩

end Cert.HopSpec

end
-- ==== Proof.Hop0.lean ====
import proofs.«106384_j83562883711802_2_alg».proof.Proof.Gen.KernelIdeal.Frame
import proofs.«106384_j83562883711802_2_alg».proof.Proof.HopSpec
import Idealize.ShloMosaic.Lib.Pipeline.Value
import Idealize.ShloMosaic.Lib.ValueIdx

/-!
Propagation step 0 of the blocked program, from the buffer contents `V` it is entered with.

The step works on blocks of 2000 consecutive rows. On a block it multiplies the aggregated features by the
rows' factors (a column of 2000 entries repeated along the 256 columns), adds the product times 1.0 to the
running sum, and also stores the product scaled once more by the same factors, which the next step gathers
from. Block `t` covers rows `2000 t … 2000 t + 1999` of every array, so the 25 blocks tile the 50000 rows
and each output array ends as one function of the whole input arrays.
-/

set_option maxRecDepth 16384

noncomputable section

namespace Cert.KernelIdeal.Hop0

open Cert.KernelIdeal Cert.KernelIdeal.Gen Idealize.ShloMosaic Idealize.ShloMosaic.TcCoe Idealize.SL.Sem
open Idealize.ShloMosaic.ValueIdx Cert.HopSpec
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The factor of the row a block entry lies in. -/
abbrev factorOf (y : S2000x256.Idx) : S2000x1.Idx := fun a => match a with
  | ⟨0, _⟩ => ⟨(y 0).val, (y 0).isLt⟩
  | ⟨1, _⟩ => ⟨0, Nat.one_pos⟩

/-- The column of factors repeated along the columns, read at an entry. -/
theorem factors_apply (x1 : Vec Ideal S2000x1 .f32) (y : S2000x256.Idx) :
    broadcastTo S2000x256 (shapeCast S2000x1 x1 shapeCasts_S2000x1_S2000x1) broadcasts_S2000x1_S2000x256 y
      = x1 (factorOf y) := by
  rw [shapeCast_self]
  exact broadcastTo_apply x1 broadcasts_S2000x1_S2000x256 y (factorOf y) (fun a => match a with
    | ⟨0, _⟩ => by show (y 0).val = if (2000 : Nat) = 1 then 0 else (y 0).val; rw [if_neg (by decide)]
    | ⟨1, _⟩ => by show 0 = if (1 : Nat) = 1 then 0 else (y 1).val; rw [if_pos rfl])

/-- The aggregated block times the rows' factors, at an entry. -/
theorem scaled_apply (x1 : Vec Ideal S2000x1 .f32) (x0 : Vec Ideal S2000x256 .f32) (y : S2000x256.Idx) :
    k0_pay2 x1 x0 y = x0 y * x1 (factorOf y) := by
  unfold k0_pay2 k0_pay1
  show (shapeCast S2000x256 x0 shapeCasts_S2000x256_S2000x256) y * _ = _
  rw [shapeCast_self, factors_apply]

/-- The new running sum on a block, at an entry. -/
theorem sum_apply (x1 : Vec Ideal S2000x1 .f32) (x0 x2 : Vec Ideal S2000x256 .f32) (y : S2000x256.Idx) :
    k0_pay3 x1 x0 x2 y = x2 y + x0 y * x1 (factorOf y) * Ideal.ofBits .f32 0x3F800000#32 := by
  unfold k0_pay3
  show x2 y + k0_pay2 x1 x0 y * _ = _
  rw [scaled_apply]
  rfl

/-- What the next step gathers from, on a block, at an entry: the scaled block scaled once more (the
    narrowing of the float format is the identity on extended reals). -/
theorem next_apply (x1 : Vec Ideal S2000x1 .f32) (x0 : Vec Ideal S2000x256 .f32) (y : S2000x256.Idx) :
    k0_pay4 x1 x0 y = x0 y * x1 (factorOf y) * x1 (factorOf y) := by
  unfold k0_pay4 k0_pay1
  show k0_pay2 x1 x0 y * _ = _
  rw [scaled_apply, factors_apply]

/-- The printed block maps over the 25 grid points: every window's block at point `t` starts at row
    `2000 t`, and at column 0. -/
theorem block_starts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Every block of rows is some grid point's. -/
theorem block_onto : ∀ q : Fin 25, ∃ t : Fin cfg0.N, t.val = q.val :=
  (by decide +kernel : ∀ q : Fin 25, ∃ t : Fin grid0.N, t.val = q.val)

/-- One entry of the new running sum from the entries it is made of. -/
def sumEntry (s a : SN.Idx → EReal) (n : SC.Idx → EReal) (i2 i0 : SN.Idx) (i1 : SC.Idx) : EReal :=
  s i2 + a i0 * n i1 * Ideal.ofBits .f32 0x3F800000#32

/-- One entry of what the next step gathers from. -/
def nextEntry (a : SN.Idx → EReal) (n : SC.Idx → EReal) (i0 : SN.Idx) (i1 : SC.Idx) : EReal :=
  a i0 * n i1 * n i1

/-- The running sum this step leaves, as one function of the arrays it is entered with. -/
abbrev sumOut (c : Dev nD) : SN.Idx → EReal :=
  accum (V c main_arg0) (rowScale (V c main_v22) (V c main_v8))

/-- What the next step gathers from, as one function of the arrays this step is entered with. -/
abbrev nextOut (c : Dev nD) : SN.Idx → EReal :=
  rowScale (rowScale (V c main_v22) (V c main_v8)) (V c main_v8)

/-- Grid point `t` writes back block `t` of the new running sum. -/
theorem flushed_sum (c : Dev nD) (t : Fin cfg0.N) :
    (dat0 V c).flushed 3 t = ((cfg0.win 3).blk t).view.read (Elt Ideal) (sumOut V c) := by
  show (cfg0.win 3).cut (grid0.coords t) ((dat0 V c).after 3 t) = _
  rw [after0_3]
  unfold out0_3
  rw [View.canon_unit_zero zero_offsets]
  simp only [View.ld_unit_zero (S := S2000x256) zero_offsets, View.ld_unit_zero (S := S2000x1) zero_offsets]
  obtain ⟨e00, e01, e10, e11, e20, e21, e30, e31, e40, e41⟩ := block_starts t
  funext y
  show k0_pay3 (iblk0 V c 1 t) (iblk0 V c 0 t) (iblk0 V c 2 t) y = sumOut V c (((cfg0.win 3).blk t).view.emb y)
  rw [sum_apply]
  have h0 : ((cfg0.win 0).blk t).view.emb y = ((cfg0.win 3).blk t).view.emb y := by
    funext a; apply Fin.ext
    match a with
    | ⟨0, _⟩ => show win0_0.index t (0 : Fin 2) * 2000 + 1 * (y 0).val = win0_3.index t (0 : Fin 2) * 2000 + 1 * (y 0).val; omega
    | ⟨1, _⟩ => show win0_0.index t (1 : Fin 2) * 256 + 1 * (y 1).val = win0_3.index t (1 : Fin 2) * 256 + 1 * (y 1).val; omega
  have h2 : ((cfg0.win 2).blk t).view.emb y = ((cfg0.win 3).blk t).view.emb y := by
    funext a; apply Fin.ext
    match a with
    | ⟨0, _⟩ => show win0_2.index t (0 : Fin 2) * 2000 + 1 * (y 0).val = win0_3.index t (0 : Fin 2) * 2000 + 1 * (y 0).val; omega
    | ⟨1, _⟩ => show win0_2.index t (1 : Fin 2) * 256 + 1 * (y 1).val = win0_3.index t (1 : Fin 2) * 256 + 1 * (y 1).val; omega
  have h1 : ((cfg0.win 1).blk t).view.emb (factorOf y) = rowOf (((cfg0.win 3).blk t).view.emb y) := by
    funext a; apply Fin.ext
    match a with
    | ⟨0, _⟩ => show win0_1.index t (0 : Fin 2) * 2000 + 1 * (y 0).val = win0_3.index t (0 : Fin 2) * 2000 + 1 * (y 0).val; omega
    | ⟨1, _⟩ => show win0_1.index t (1 : Fin 2) * 1 + 1 * 0 = 0; omega
  show sumEntry (V c main_arg0) (V c main_v22) (V c main_v8) (((cfg0.win 2).blk t).view.emb y)
      (((cfg0.win 0).blk t).view.emb y) (((cfg0.win 1).blk t).view.emb (factorOf y)) = _
  rw [h0, h1, h2]
  rfl

/-- An index of the array is in point `t`'s block iff each coordinate is in the block's range. -/
theorem mem_sum_block (t : Fin cfg0.N) (i : SN.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v23_0).slice (win0_3.rect t)).set ↔ _
  rw [View.set_slice_whole, Rect.mem_set_unit]
  exact Iff.rfl

/-- The 25 blocks of 2000 rows cover the 50000 rows. -/
theorem cover_sum (i : SN.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := block_onto ⟨(i 0).val / 2000, by omega⟩
  obtain ⟨e00, e01, e10, e11, e20, e21, e30, e31, e40, e41⟩ := block_starts t
  have ht' : t.val = (i 0).val / 2000 := ht
  refine ⟨t, flush0_3 t, ?_⟩
  rw [mem_sum_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-- THE RUNNING SUM after the step. -/
theorem sum_array (c : Dev nD) : (dat0 V c).arrAt 3 cfg0.N = sumOut V c :=
  (dat0 V c).arrAt_eq_of_cover 3 (sumOut V c) (fun t _ => flushed_sum V c t) (cover_sum)

/-- Grid point `t` writes back block `t` of what the next step gathers from. -/
theorem flushed_next (c : Dev nD) (t : Fin cfg0.N) :
    (dat0 V c).flushed 4 t = ((cfg0.win 4).blk t).view.read (Elt Ideal) (nextOut V c) := by
  show (cfg0.win 4).cut (grid0.coords t) ((dat0 V c).after 4 t) = _
  rw [after0_4]
  unfold out0_4
  rw [View.canon_unit_zero zero_offsets]
  simp only [View.ld_unit_zero (S := S2000x256) zero_offsets, View.ld_unit_zero (S := S2000x1) zero_offsets]
  obtain ⟨e00, e01, e10, e11, e20, e21, e30, e31, e40, e41⟩ := block_starts t
  funext y
  show k0_pay4 (iblk0 V c 1 t) (iblk0 V c 0 t) y = nextOut V c (((cfg0.win 4).blk t).view.emb y)
  rw [next_apply]
  have h0 : ((cfg0.win 0).blk t).view.emb y = ((cfg0.win 4).blk t).view.emb y := by
    funext a; apply Fin.ext
    match a with
    | ⟨0, _⟩ => show win0_0.index t (0 : Fin 2) * 2000 + 1 * (y 0).val = win0_4.index t (0 : Fin 2) * 2000 + 1 * (y 0).val; omega
    | ⟨1, _⟩ => show win0_0.index t (1 : Fin 2) * 256 + 1 * (y 1).val = win0_4.index t (1 : Fin 2) * 256 + 1 * (y 1).val; omega
  have h1 : ((cfg0.win 1).blk t).view.emb (factorOf y) = rowOf (((cfg0.win 4).blk t).view.emb y) := by
    funext a; apply Fin.ext
    match a with
    | ⟨0, _⟩ => show win0_1.index t (0 : Fin 2) * 2000 + 1 * (y 0).val = win0_4.index t (0 : Fin 2) * 2000 + 1 * (y 0).val; omega
    | ⟨1, _⟩ => show win0_1.index t (1 : Fin 2) * 1 + 1 * 0 = 0; omega
  show nextEntry (V c main_v22) (V c main_v8) (((cfg0.win 0).blk t).view.emb y)
      (((cfg0.win 1).blk t).view.emb (factorOf y)) = _
  rw [h0, h1]
  rfl

theorem mem_next_block (t : Fin cfg0.N) (i : SN.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v23_1).slice (win0_4.rect t)).set ↔ _
  rw [View.set_slice_whole, Rect.mem_set_unit]
  exact Iff.rfl

theorem cover_next (i : SN.Idx) : ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := block_onto ⟨(i 0).val / 2000, by omega⟩
  obtain ⟨e00, e01, e10, e11, e20, e21, e30, e31, e40, e41⟩ := block_starts t
  have ht' : t.val = (i 0).val / 2000 := ht
  refine ⟨t, flush0_4 t, ?_⟩
  rw [mem_next_block]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

/-- WHAT THE NEXT STEP GATHERS FROM, after the step. -/
theorem next_array (c : Dev nD) : (dat0 V c).arrAt 4 cfg0.N = nextOut V c :=
  (dat0 V c).arrAt_eq_of_cover 4 (nextOut V c) (fun t _ => flushed_next V c t) (cover_next)

end Cert.KernelIdeal.Hop0

end
-- ==== Proof.Hop1.lean ====
import proofs.«106384_j83562883711802_2_alg».proof.Proof.Gen.KernelIdeal.Frame
import proofs.«106384_j83562883711802_2_alg».proof.Proof.HopSpec
import Idealize.ShloMosaic.Lib.Pipeline.Value
import Idealize.ShloMosaic.Lib.ValueIdx

/-!
Propagation step 1 of the blocked program, from the buffer contents `V` it is entered with.

The step works on blocks of 2000 consecutive rows. On a block it multiplies the aggregated features by the
rows' factors (a column of 2000 entries repeated along the 256 columns), adds the product times 1.0 to the
running sum, and also stores the product scaled once more by the same factors, which the next step gathers
from. Block `t` covers rows `2000 t … 2000 t + 1999` of every array, so the 25 blocks tile the 50000 rows
and each output array ends as one function of the whole input arrays.
-/

set_option maxRecDepth 16384

noncomputable section

namespace Cert.KernelIdeal.Hop1

open Cert.KernelIdeal Cert.KernelIdeal.Gen Idealize.ShloMosaic Idealize.ShloMosaic.TcCoe Idealize.SL.Sem
open Idealize.ShloMosaic.ValueIdx Cert.HopSpec
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The factor of the row a block entry lies in. -/
abbrev factorOf (y : S2000x256.Idx) : S2000x1.Idx := fun a => match a with
  | ⟨0, _⟩ => ⟨(y 0).val, (y 0).isLt⟩
  | ⟨1, _⟩ => ⟨0, Nat.one_pos⟩

/-- The column of factors repeated along the columns, read at an entry. -/
theorem factors_apply (x1 : Vec Ideal S2000x1 .f32) (y : S2000x256.Idx) :
    broadcastTo S2000x256 (shapeCast S2000x1 x1 shapeCasts_S2000x1_S2000x1) broadcasts_S2000x1_S2000x256 y
      = x1 (factorOf y) := by
  rw [shapeCast_self]
  exact broadcastTo_apply x1 broadcasts_S2000x1_S2000x256 y (factorOf y) (fun a => match a with
    | ⟨0, _⟩ => by show (y 0).val = if (2000 : Nat) = 1 then 0 else (y 0).val; rw [if_neg (by decide)]
    | ⟨1, _⟩ => by show 0 = if (1 : Nat) = 1 then 0 else (y 1).val; rw [if_pos rfl])

/-- The aggregated block times the rows' factors, at an entry. -/
theorem scaled_apply (x1 : Vec Ideal S2000x1 .f32) (x0 : Vec Ideal S2000x256 .f32) (y : S2000x256.Idx) :
    k1_pay2 x1 x0 y = x0 y * x1 (factorOf y) := by
  unfold k1_pay2 k1_pay1
  show (shapeCast S2000x256 x0 shapeCasts_S2000x256_S2000x256) y * _ = _
  rw [shapeCast_self, factors_apply]

/-- The new running sum on a block, at an entry. -/
theorem sum_apply (x1 : Vec Ideal S2000x1 .f32) (x0 x2 : Vec Ideal S2000x256 .f32) (y : S2000x256.Idx) :
    k1_pay3 x1 x0 x2 y = x2 y + x0 y * x1 (factorOf y) * Ideal.ofBits .f32 0x3F800000#32 := by
  unfold k1_pay3
  show (shapeCast S2000x256 x2 shapeCasts_S2000x256_S2000x256) y + k1_pay2 x1 x0 y * _ = _
  rw [shapeCast_self, scaled_apply]
  rfl

/-- What the next step gathers from, on a block, at an entry: the scaled block scaled once more (the
    narrowing of the float format is the identity on extended reals). -/
theorem next_apply (x1 : Vec Ideal S2000x1 .f32) (x0 : Vec Ideal S2000x256 .f32) (y : S2000x256.Idx) :
    k1_pay4 x1 x0 y = x0 y * x1 (factorOf y) * x1 (factorOf y) := by
  unfold k1_pay4 k1_pay1
  show k1_pay2 x1 x0 y * _ = _
  rw [scaled_apply, factors_apply]

/-- The printed block maps over the 25 grid points: every window's block at point `t` starts at row
    `2000 t`, and at column 0. -/
theorem block_starts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Every block of rows is some grid point's. -/
theorem block_onto : ∀ q : Fin 25, ∃ t : Fin cfg1.N, t.val = q.val :=
  (by decide +kernel : ∀ q : Fin 25, ∃ t : Fin grid1.N, t.val = q.val)

/-- One entry of the new running sum from the entries it is made of. -/
def sumEntry (s a : SN.Idx → EReal) (n : SC.Idx → EReal) (i2 i0 : SN.Idx) (i1 : SC.Idx) : EReal :=
  s i2 + a i0 * n i1 * Ideal.ofBits .f32 0x3F800000#32

/-- One entry of what the next step gathers from. -/
def nextEntry (a : SN.Idx → EReal) (n : SC.Idx → EReal) (i0 : SN.Idx) (i1 : SC.Idx) : EReal :=
  a i0 * n i1 * n i1

/-- The running sum this step leaves, as one function of the arrays it is entered with. -/
abbrev sumOut (c : Dev nD) : SN.Idx → EReal :=
  accum (V c main_v23_0) (rowScale (V c main_v34) (V c main_v8))

/-- What the next step gathers from, as one function of the arrays this step is entered with. -/
abbrev nextOut (c : Dev nD) : SN.Idx → EReal :=
  rowScale (rowScale (V c main_v34) (V c main_v8)) (V c main_v8)

/-- Grid point `t` writes back block `t` of the new running sum. -/
theorem flushed_sum (c : Dev nD) (t : Fin cfg1.N) :
    (dat1 V c).flushed 3 t = ((cfg1.win 3).blk t).view.read (Elt Ideal) (sumOut V c) := by
  show (cfg1.win 3).cut (grid1.coords t) ((dat1 V c).after 3 t) = _
  rw [after1_3]
  unfold out1_3
  rw [View.canon_unit_zero zero_offsets]
  simp only [View.ld_unit_zero (S := S2000x256) zero_offsets, View.ld_unit_zero (S := S2000x1) zero_offsets]
  obtain ⟨e00, e01, e10, e11, e20, e21, e30, e31, e40, e41⟩ := block_starts t
  funext y
  show k1_pay3 (iblk1 V c 1 t) (iblk1 V c 0 t) (iblk1 V c 2 t) y = sumOut V c (((cfg1.win 3).blk t).view.emb y)
  rw [sum_apply]
  have h0 : ((cfg1.win 0).blk t).view.emb y = ((cfg1.win 3).blk t).view.emb y := by
    funext a; apply Fin.ext
    match a with
    | ⟨0, _⟩ => show win1_0.index t (0 : Fin 2) * 2000 + 1 * (y 0).val = win1_3.index t (0 : Fin 2) * 2000 + 1 * (y 0).val; omega
    | ⟨1, _⟩ => show win1_0.index t (1 : Fin 2) * 256 + 1 * (y 1).val = win1_3.index t (1 : Fin 2) * 256 + 1 * (y 1).val; omega
  have h2 : ((cfg1.win 2).blk t).view.emb y = ((cfg1.win 3).blk t).view.emb y := by
    funext a; apply Fin.ext
    match a with
    | ⟨0, _⟩ => show win1_2.index t (0 : Fin 2) * 2000 + 1 * (y 0).val = win1_3.index t (0 : Fin 2) * 2000 + 1 * (y 0).val; omega
    | ⟨1, _⟩ => show win1_2.index t (1 : Fin 2) * 256 + 1 * (y 1).val = win1_3.index t (1 : Fin 2) * 256 + 1 * (y 1).val; omega
  have h1 : ((cfg1.win 1).blk t).view.emb (factorOf y) = rowOf (((cfg1.win 3).blk t).view.emb y) := by
    funext a; apply Fin.ext
    match a with
    | ⟨0, _⟩ => show win1_1.index t (0 : Fin 2) * 2000 + 1 * (y 0).val = win1_3.index t (0 : Fin 2) * 2000 + 1 * (y 0).val; omega
    | ⟨1, _⟩ => show win1_1.index t (1 : Fin 2) * 1 + 1 * 0 = 0; omega
  show sumEntry (V c main_v23_0) (V c main_v34) (V c main_v8) (((cfg1.win 2).blk t).view.emb y)
      (((cfg1.win 0).blk t).view.emb y) (((cfg1.win 1).blk t).view.emb (factorOf y)) = _
  rw [h0, h1, h2]
  rfl

/-- An index of the array is in point `t`'s block iff each coordinate is in the block's range. -/
theorem mem_sum_block (t : Fin cfg1.N) (i : SN.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v35_0).slice (win1_3.rect t)).set ↔ _
  rw [View.set_slice_whole, Rect.mem_set_unit]
  exact Iff.rfl

/-- The 25 blocks of 2000 rows cover the 50000 rows. -/
theorem cover_sum (i : SN.Idx) : ∃ t : Fin cfg1.N, (cfg1.win 3).flush t = true ∧ i ∈ ((cfg1.win 3).blk t).view.set := by
  have hi0 : (i 0).val < 50000 := (i 0).isLt
  have hi1 : (i 1).val < 256 := (i 1).isLt
  obtain ⟨t, ht⟩ := block_onto ⟨(i 0).val / 2000, by omega⟩
  obtain ⟨e00, e01, e10, e11, e20, e21, e30, e31, e40, e41⟩ := block_starts t
  have ht' : t.val = (i 0).val / 2000 := ht
  refine ⟨t, flush1_3 t, ?_⟩
  rw [mem_sum_block]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-- THE RUNNING SUM after the step. -/
theorem sum_array (c : Dev nD) : (dat1 V c).arrAt 3 cfg1.N = sumOut V c :=
  (dat1 V c).arrAt_eq_of_cover 3 (sumOut V c) (fun t _ => flushed_sum V c t) (cover_sum)

/-- Grid point `t` writes back block `t` of what the next step gathers from. -/
theorem flushed_next (c : Dev nD) (t : Fin cfg1.N) :
    (dat1 V c).flushed 4 t = ((cfg1.win 4).blk t).view.read (Elt Ideal) (nextOut V c) := by
  show (cfg1.win 4).cut (grid1.coords t) ((dat1 V c).after 4 t) = _
  rw [after1_4]
  unfold out1_4
  rw [View.canon_unit_zero zero_offsets]
  simp only [View.ld_unit_zero (S := S2000x256) zero_offsets, View.ld_unit_zero (S := S2000x1) zero_offsets]
  obtain ⟨e00, e01, e10, e11, e20, e21, e30, e31, e40, e41⟩ := block_starts t
  funext y
  show k1_pay4 (iblk1 V c 1 t) (iblk1 V c 0 t) y = nextOut V c (((cfg1.win 4).blk t).view.emb y)
  rw [next_apply]
  have h0 : ((cfg1.win 0).blk t).view.emb y = ((cfg1.win 4).blk t).view.emb y := by
    funext a; apply Fin.ext
    match a with
    | ⟨0, _⟩ => show win1_0.index t (0 : Fin 2) * 2000 + 1 * (y 0).val = win1_4.index t (0 : Fin 2) * 2000 + 1 * (y 0).val; omega
    | ⟨1, _⟩ => show win1_0.index t (1 : Fin 2) * 256 + 1 * (y 1).val = win1_4.index t (1 : Fin 2) * 256 + 1 * (y 1).val; omega
  have h1 : ((cfg1.win 1).blk t).view.emb (factorOf y) = rowOf (((cfg1.win 4).blk t).view.emb y) := by
    funext a; apply Fin.ext
    match a with
    | ⟨0, _⟩ => show win1_1.index t (0 : Fin 2) * 2000 + 1 * (y 0).val = win1_4.index t (0 : Fin 2) * 2000 + 1 * (y 0).val; omega
    | ⟨1, _⟩ => show win1_1.index t (1 : Fin 2) * 1 + 1 * 0 = 0; omega
  show nextEntry (V c main_v34) (V c main_v8) (((cfg1.win 0).blk t).view.emb y)
      (((cfg1.win 1).blk t).view.emb (factorOf y)) = _
  rw [h0, h1]
  rfl

theorem mem_next_block (t : Fin cfg1.N) (i : SN.Idx) :
    i ∈ ((cfg1.win 4).blk t).view.set ↔ ∀ a : Fin 2, win1_4.index t a * S2000x256.size a ≤ (i a).val ∧ (i a).val < win1_4.index t a * S2000x256.size a + S2000x256.size a := by
  show i ∈ ((View.whole main_v35_1).slice (win1_4.rect t)).set ↔ _
  rw [View.set_slice_whole, Rect.mem_set_unit]
  exact Iff.rfl

theorem cover_next (i : SN.Idx) : ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, ht⟩ := block_onto ⟨(i 0).val / 2000, by omega⟩
  obtain ⟨e00, e01, e10, e11, e20, e21, e30, e31, e40, e41⟩ := block_starts t
  have ht' : t.val = (i 0).val / 2000 := ht
  refine ⟨t, flush1_4 t, ?_⟩
  rw [mem_next_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 256 ≤ (i 1).val ∧ (i 1).val < win1_4.index t (1 : Fin 2) * 256 + 256; omega

/-- WHAT THE NEXT STEP GATHERS FROM, after the step. -/
theorem next_array (c : Dev nD) : (dat1 V c).arrAt 4 cfg1.N = nextOut V c :=
  (dat1 V c).arrAt_eq_of_cover 4 (nextOut V c) (fun t _ => flushed_next V c t) (cover_next)

end Cert.KernelIdeal.Hop1

end
-- ==== Proof.Hop2.lean ====
import proofs.«106384_j83562883711802_2_alg».proof.Proof.Gen.KernelIdeal.Frame
import proofs.«106384_j83562883711802_2_alg».proof.Proof.HopSpec
import Idealize.ShloMosaic.Lib.Pipeline.Value
import Idealize.ShloMosaic.Lib.ValueIdx

/-!
Propagation step 2 of the blocked program, from the buffer contents `V` it is entered with.

The step works on blocks of 2000 consecutive rows. On a block it multiplies the aggregated features by the
rows' factors (a column of 2000 entries repeated along the 256 columns), adds the product times 1.0 to the
running sum. Block `t` covers rows `2000 t … 2000 t + 1999` of every array, so the 25 blocks tile the 50000 rows
and each output array ends as one function of the whole input arrays.
-/

set_option maxRecDepth 16384

noncomputable section

namespace Cert.KernelIdeal.Hop2

open Cert.KernelIdeal Cert.KernelIdeal.Gen Idealize.ShloMosaic Idealize.ShloMosaic.TcCoe Idealize.SL.Sem
open Idealize.ShloMosaic.ValueIdx Cert.HopSpec
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The factor of the row a block entry lies in. -/
abbrev factorOf (y : S2000x256.Idx) : S2000x1.Idx := fun a => match a with
  | ⟨0, _⟩ => ⟨(y 0).val, (y 0).isLt⟩
  | ⟨1, _⟩ => ⟨0, Nat.one_pos⟩

/-- The column of factors repeated along the columns, read at an entry. -/
theorem factors_apply (x1 : Vec Ideal S2000x1 .f32) (y : S2000x256.Idx) :
    broadcastTo S2000x256 x1 broadcasts_S2000x1_S2000x256 y = x1 (factorOf y) :=
  broadcastTo_apply x1 broadcasts_S2000x1_S2000x256 y (factorOf y) (fun a => match a with
    | ⟨0, _⟩ => by show (y 0).val = if (2000 : Nat) = 1 then 0 else (y 0).val; rw [if_neg (by decide)]
    | ⟨1, _⟩ => by show 0 = if (1 : Nat) = 1 then 0 else (y 1).val; rw [if_pos rfl])

/-- The new running sum on a block, at an entry. -/
theorem sum_apply (x0 : Vec Ideal S2000x256 .f32) (x1 : Vec Ideal S2000x1 .f32) (x2 : Vec Ideal S2000x256 .f32)
    (y : S2000x256.Idx) :
    k2_pay1 x0 x1 x2 y = x2 y + x0 y * x1 (factorOf y) * Ideal.ofBits .f32 0x3F800000#32 := by
  unfold k2_pay1
  simp only [shapeCast_self]
  show x2 y + x0 y * broadcastTo S2000x256 x1 broadcasts_S2000x1_S2000x256 y * _ = _
  rw [factors_apply]
  rfl

/-- The printed block maps over the 25 grid points: every window's block at point `t` starts at row
    `2000 t`, and at column 0. -/
theorem block_starts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Every block of rows is some grid point's. -/
theorem block_onto : ∀ q : Fin 25, ∃ t : Fin cfg2.N, t.val = q.val :=
  (by decide +kernel : ∀ q : Fin 25, ∃ t : Fin grid2.N, t.val = q.val)

/-- One entry of the new running sum from the entries it is made of. -/
def sumEntry (s a : SN.Idx → EReal) (n : SC.Idx → EReal) (i2 i0 : SN.Idx) (i1 : SC.Idx) : EReal :=
  s i2 + a i0 * n i1 * Ideal.ofBits .f32 0x3F800000#32

/-- The running sum this step leaves, as one function of the arrays it is entered with. -/
abbrev sumOut (c : Dev nD) : SN.Idx → EReal :=
  accum (V c main_v35_0) (rowScale (V c main_v46) (V c main_v8))

/-- Grid point `t` writes back block `t` of the new running sum. -/
theorem flushed_sum (c : Dev nD) (t : Fin cfg2.N) :
    (dat2 V c).flushed 3 t = ((cfg2.win 3).blk t).view.read (Elt Ideal) (sumOut V c) := by
  show (cfg2.win 3).cut (grid2.coords t) ((dat2 V c).after 3 t) = _
  rw [after2_3]
  unfold out2_3
  rw [View.canon_unit_zero zero_offsets]
  simp only [View.ld_unit_zero (S := S2000x256) zero_offsets, View.ld_unit_zero (S := S2000x1) zero_offsets]
  obtain ⟨e00, e01, e10, e11, e20, e21, e30, e31⟩ := block_starts t
  funext y
  show k2_pay1 (iblk2 V c 0 t) (iblk2 V c 1 t) (iblk2 V c 2 t) y = sumOut V c (((cfg2.win 3).blk t).view.emb y)
  rw [sum_apply]
  have h0 : ((cfg2.win 0).blk t).view.emb y = ((cfg2.win 3).blk t).view.emb y := by
    funext a; apply Fin.ext
    match a with
    | ⟨0, _⟩ => show win2_0.index t (0 : Fin 2) * 2000 + 1 * (y 0).val = win2_3.index t (0 : Fin 2) * 2000 + 1 * (y 0).val; omega
    | ⟨1, _⟩ => show win2_0.index t (1 : Fin 2) * 256 + 1 * (y 1).val = win2_3.index t (1 : Fin 2) * 256 + 1 * (y 1).val; omega
  have h2 : ((cfg2.win 2).blk t).view.emb y = ((cfg2.win 3).blk t).view.emb y := by
    funext a; apply Fin.ext
    match a with
    | ⟨0, _⟩ => show win2_2.index t (0 : Fin 2) * 2000 + 1 * (y 0).val = win2_3.index t (0 : Fin 2) * 2000 + 1 * (y 0).val; omega
    | ⟨1, _⟩ => show win2_2.index t (1 : Fin 2) * 256 + 1 * (y 1).val = win2_3.index t (1 : Fin 2) * 256 + 1 * (y 1).val; omega
  have h1 : ((cfg2.win 1).blk t).view.emb (factorOf y) = rowOf (((cfg2.win 3).blk t).view.emb y) := by
    funext a; apply Fin.ext
    match a with
    | ⟨0, _⟩ => show win2_1.index t (0 : Fin 2) * 2000 + 1 * (y 0).val = win2_3.index t (0 : Fin 2) * 2000 + 1 * (y 0).val; omega
    | ⟨1, _⟩ => show win2_1.index t (1 : Fin 2) * 1 + 1 * 0 = 0; omega
  show sumEntry (V c main_v35_0) (V c main_v46) (V c main_v8) (((cfg2.win 2).blk t).view.emb y)
      (((cfg2.win 0).blk t).view.emb y) (((cfg2.win 1).blk t).view.emb (factorOf y)) = _
  rw [h0, h1, h2]
  rfl

/-- An index of the array is in point `t`'s block iff each coordinate is in the block's range. -/
theorem mem_sum_block (t : Fin cfg2.N) (i : SN.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v47).slice (win2_3.rect t)).set ↔ _
  rw [View.set_slice_whole, Rect.mem_set_unit]
  exact Iff.rfl

/-- The 25 blocks of 2000 rows cover the 50000 rows. -/
theorem cover_sum (i : SN.Idx) : ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := block_onto ⟨(i 0).val / 2000, by omega⟩
  obtain ⟨e00, e01, e10, e11, e20, e21, e30, e31⟩ := block_starts t
  have ht' : t.val = (i 0).val / 2000 := ht
  refine ⟨t, flush2_3 t, ?_⟩
  rw [mem_sum_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- THE RUNNING SUM after the step. -/
theorem sum_array (c : Dev nD) : (dat2 V c).arrAt 3 cfg2.N = sumOut V c :=
  (dat2 V c).arrAt_eq_of_cover 3 (sumOut V c) (fun t _ => flushed_sum V c t) (cover_sum)

end Cert.KernelIdeal.Hop2

end
-- ==== Proof.FinalStep.lean ====
import proofs.«106384_j83562883711802_2_alg».proof.Proof.Gen.KernelIdeal.Frame
import proofs.«106384_j83562883711802_2_alg».proof.Proof.HopSpec
import Idealize.ShloMosaic.Lib.Pipeline.Value
import Idealize.ShloMosaic.Lib.ValueIdx
import Idealize.ShloMosaic.PureOps.Ideal.Laws

/-!
The last step of the blocked program, from the buffer contents `V` it is entered with.

On a block of 2000 rows of the accumulated features it multiplies by the whole weight matrix on the matrix
unit (into a zero accumulator: a plain sum over the 256 contracted entries), adds the bias vector repeated
along the rows, and takes the maximum with zero. The weight matrix and the bias are the same block at every
grid point; the features' and the result's block `t` covers rows `2000 t … 2000 t + 1999`.
-/

set_option maxRecDepth 16384

noncomputable section

namespace Cert.KernelIdeal.FinalStep

open Cert.KernelIdeal Cert.KernelIdeal.Gen Idealize.ShloMosaic Idealize.ShloMosaic.TcCoe Idealize.SL.Sem
open Idealize.ShloMosaic.ValueIdx Cert.HopSpec
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl
theorem zero_offset : (![0] : Fin 1 → Nat) = fun _ => 0 := funext fun a => by fin_cases a; rfl

/-- Entry `k` of the row of a block entry. -/
abbrev rowEntry (y : S2000x256.Idx) (k : Fin 256) : S2000x256.Idx := fun a => match a with
  | ⟨0, _⟩ => ⟨(y 0).val, (y 0).isLt⟩
  | ⟨1, _⟩ => ⟨k.val, k.isLt⟩
/-- Entry `k` of the weight column of a block entry. -/
abbrev colEntry (y : S2000x256.Idx) (k : Fin 256) : S256x256.Idx := fun a => match a with
  | ⟨0, _⟩ => ⟨k.val, k.isLt⟩
  | ⟨1, _⟩ => ⟨(y 1).val, (y 1).isLt⟩
/-- The bias entry of the column of a block entry. -/
abbrev biasEntry (y : S2000x256.Idx) : S256.Idx := fun a => match a with
  | ⟨0, _⟩ => ⟨(y 1).val, (y 1).isLt⟩

theorem lhs_row (y : S2000x256.Idx) (q : dot_S2000x256_S256x256_S2000x256_1_0_0_1_n_n.contr.Idx) :
    (dot_S2000x256_S256x256_S2000x256_1_0_0_1_n_n.lhsIdx y q 0).val = (y 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_contr (y : S2000x256.Idx) (q : dot_S2000x256_S256x256_S2000x256_1_0_0_1_n_n.contr.Idx) :
    (dot_S2000x256_S256x256_S2000x256_1_0_0_1_n_n.lhsIdx y q 1).val = (q ⟨0, by decide⟩).val :=
  dot_S2000x256_S256x256_S2000x256_1_0_0_1_n_n.lhsIdx_val_of_single rfl y q
theorem rhs_contr (y : S2000x256.Idx) (q : dot_S2000x256_S256x256_S2000x256_1_0_0_1_n_n.contr.Idx) :
    (dot_S2000x256_S256x256_S2000x256_1_0_0_1_n_n.rhsIdx y q 0).val = (q ⟨0, by decide⟩).val :=
  dot_S2000x256_S256x256_S2000x256_1_0_0_1_n_n.rhsIdx_val_of_single rfl y q
theorem rhs_col (y : S2000x256.Idx) (q : dot_S2000x256_S256x256_S2000x256_1_0_0_1_n_n.contr.Idx) :
    (dot_S2000x256_S256x256_S2000x256_1_0_0_1_n_n.rhsIdx y q 1).val = (y 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix unit's product into the zero accumulator, at an entry: the sum over the 256 contracted
    entries of a features row times a weight column (narrowing the operands' float format is the identity
    on extended reals). -/
theorem product_apply (x0 : Vec Ideal S2000x256 .f32) (x1 : Vec Ideal S256x256 .f32) (y : S2000x256.Idx) :
    matmul (F := Ideal) dot_S2000x256_S256x256_S2000x256_1_0_0_1_n_n none
        (truncf .bf16 (shapeCast S2000x256 x0 shapeCasts_S2000x256_S2000x256) bitsLt_bf16_f32)
        (truncf .bf16 x1 bitsLt_bf16_f32) (constant (F := Ideal) S2000x256 .f32 0x00000000#32) y
      = ∑ k : Fin 256, x0 (rowEntry y k) * x1 (colEntry y k) := by
  rw [shapeCast_self]
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx y ((ValueIdx.contrEquiv1 dot_S2000x256_S256x256_S2000x256_1_0_0_1_n_n 256 rfl rfl).symm k) = rowEntry y k := funext fun a => Fin.ext (by
    match a with
    | ⟨0, _⟩ => exact lhs_row _ _
    | ⟨1, _⟩ => exact (lhs_contr _ _).trans hk)
  have er : dot_S2000x256_S256x256_S2000x256_1_0_0_1_n_n.rhsIdx y ((ValueIdx.contrEquiv1 dot_S2000x256_S256x256_S2000x256_1_0_0_1_n_n 256 rfl rfl).symm k) = colEntry y k := funext fun a => Fin.ext (by
    match a with
    | ⟨0, _⟩ => exact (rhs_contr _ _).trans hk
    | ⟨1, _⟩ => exact rhs_col _ _)
  rw [el, er]
  rfl

/-- The bias vector laid as one row and repeated along the rows, at an entry. -/
theorem bias_apply (x2 : Vec Ideal S256 .f32) (y : S2000x256.Idx) :
    broadcastTo S2000x256 (shapeCast S1x256 (shapeCast S256 x2 shapeCasts_S256_S256) shapeCasts_S256_S1x256)
        broadcasts_S1x256_S2000x256 y = x2 (biasEntry y) := by
  rw [shapeCast_self]
  rw [broadcastTo_apply _ broadcasts_S1x256_S2000x256 y (fun a => match a with
      | ⟨0, _⟩ => ⟨0, Nat.one_pos⟩
      | ⟨1, _⟩ => ⟨(y 1).val, (y 1).isLt⟩) (fun a => match a with
    | ⟨0, _⟩ => by show 0 = if (1 : Nat) = 1 then 0 else (y 0).val; rw [if_pos rfl]
    | ⟨1, _⟩ => by show (y 1).val = if (256 : Nat) = 1 then 0 else (y 1).val; rw [if_neg (by decide)])]
  refine (shapeCast_addUnit_apply ![256] x2 shapeCasts_S256_S1x256 _).trans ?_
  exact congrArg x2 (funext fun a => Fin.ext (by match a with | ⟨0, _⟩ => rfl))

/-- One entry of the result from the entries it is made of. -/
def outEntry (s : SN.Idx → EReal) (W : SW.Idx → EReal) (b4 : SB.Idx → EReal)
    (li : Fin 256 → SN.Idx) (ri : Fin 256 → SW.Idx) (bi : SB.Idx) : EReal :=
  max ((∑ k : Fin 256, s (li k) * W (ri k)) + b4 bi) (Ideal.ofBits .f32 0x00000000#32)

/-- The body's arithmetic on a block, at an entry. -/
theorem body_apply (x0 : Vec Ideal S2000x256 .f32) (x1 : Vec Ideal S256x256 .f32) (x2 : Vec Ideal S256 .f32)
    (y : S2000x256.Idx) :
    k3_pay1 x0 x1 x2 y
      = max ((∑ k : Fin 256, x0 (rowEntry y k) * x1 (colEntry y k)) + x2 (biasEntry y)) (Ideal.ofBits .f32 0x00000000#32) := by
  unfold k3_pay1
  show max (matmul (F := Ideal) dot_S2000x256_S256x256_S2000x256_1_0_0_1_n_n none
        (truncf .bf16 (shapeCast S2000x256 x0 shapeCasts_S2000x256_S2000x256) bitsLt_bf16_f32)
        (truncf .bf16 x1 bitsLt_bf16_f32) (constant (F := Ideal) S2000x256 .f32 0x00000000#32) y
      + broadcastTo S2000x256 (shapeCast S1x256 (shapeCast S256 x2 shapeCasts_S256_S256) shapeCasts_S256_S1x256)
        broadcasts_S1x256_S2000x256 y) _ = _
  rw [product_apply, bias_apply]
  rfl

/-- The printed block maps over the 25 grid points: the features' and the result's block at point `t`
    start at row `2000 t`, column 0; the weights' and the bias's block is the whole array at every point. -/
theorem block_starts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Every block of rows is some grid point's. -/
theorem block_onto : ∀ q : Fin 25, ∃ t : Fin cfg3.N, t.val = q.val :=
  (by decide +kernel : ∀ q : Fin 25, ∃ t : Fin grid3.N, t.val = q.val)

/-- The result, as one function of the arrays the step is entered with. -/
abbrev result (c : Dev nD) : SN.Idx → EReal :=
  biased (V c main_v47) (V c main_arg1) (V c main_v49)

/-- Grid point `t` writes back block `t` of the result. -/
theorem flushed_result (c : Dev nD) (t : Fin cfg3.N) :
    (dat3 V c).flushed 3 t = ((cfg3.win 3).blk t).view.read (Elt Ideal) (result V c) := by
  show (cfg3.win 3).cut (grid3.coords t) ((dat3 V c).after 3 t) = _
  rw [after3_3]
  unfold out3_3
  rw [View.canon_unit_zero zero_offsets]
  simp only [View.ld_unit_zero (S := S2000x256) zero_offsets, View.ld_unit_zero (S := S256x256) zero_offsets,
    View.ld_unit_zero (S := S256) zero_offset]
  obtain ⟨e00, e01, e10, e11, e20, e30, e31⟩ := block_starts t
  funext y
  show k3_pay1 (iblk3 V c 0 t) (iblk3 V c 1 t) (iblk3 V c 2 t) y = result V c (((cfg3.win 3).blk t).view.emb y)
  rw [body_apply]
  have h0 : ∀ k : Fin 256, ((cfg3.win 0).blk t).view.emb (rowEntry y k) = inRow (((cfg3.win 3).blk t).view.emb y) k := fun k => by
    funext a; apply Fin.ext
    match a with
    | ⟨0, _⟩ => show win3_0.index t (0 : Fin 2) * 2000 + 1 * (y 0).val = win3_3.index t (0 : Fin 2) * 2000 + 1 * (y 0).val; omega
    | ⟨1, _⟩ => show win3_0.index t (1 : Fin 2) * 256 + 1 * k.val = k.val; omega
  have h1 : ∀ k : Fin 256, ((cfg3.win 1).blk t).view.emb (colEntry y k) = inCol (((cfg3.win 3).blk t).view.emb y) k := fun k => by
    funext a; apply Fin.ext
    match a with
    | ⟨0, _⟩ => show win3_1.index t (0 : Fin 2) * 256 + 1 * k.val = k.val; omega
    | ⟨1, _⟩ => show win3_1.index t (1 : Fin 2) * 256 + 1 * (y 1).val = win3_3.index t (1 : Fin 2) * 256 + 1 * (y 1).val; omega
  have h2 : ((cfg3.win 2).blk t).view.emb (biasEntry y) = colOf (((cfg3.win 3).blk t).view.emb y) := by
    funext a; apply Fin.ext
    match a with
    | ⟨0, _⟩ => show win3_2.index t (0 : Fin 1) * 256 + 1 * (y 1).val = win3_3.index t (1 : Fin 2) * 256 + 1 * (y 1).val; omega
  show outEntry (V c main_v47) (V c main_arg1) (V c main_v49)
      (fun k => ((cfg3.win 0).blk t).view.emb (rowEntry y k)) (fun k => ((cfg3.win 1).blk t).view.emb (colEntry y k))
      (((cfg3.win 2).blk t).view.emb (biasEntry y)) = _
  rw [funext h0, funext h1, h2]
  rfl

/-- An index of the array is in point `t`'s block iff each coordinate is in the block's range. -/
theorem mem_result_block (t : Fin cfg3.N) (i : SN.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v50).slice (win3_3.rect t)).set ↔ _
  rw [View.set_slice_whole, Rect.mem_set_unit]
  exact Iff.rfl

/-- The 25 blocks of 2000 rows cover the 50000 rows. -/
theorem cover_result (i : SN.Idx) : ∃ t : Fin cfg3.N, (cfg3.win 3).flush t = true ∧ i ∈ ((cfg3.win 3).blk t).view.set := by
  have hi0 : (i 0).val < 50000 := (i 0).isLt
  have hi1 : (i 1).val < 256 := (i 1).isLt
  obtain ⟨t, ht⟩ := block_onto ⟨(i 0).val / 2000, by omega⟩
  obtain ⟨e00, e01, e10, e11, e20, e30, e31⟩ := block_starts t
  have ht' : t.val = (i 0).val / 2000 := ht
  refine ⟨t, flush3_3 t, ?_⟩
  rw [mem_result_block]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 256 ≤ (i 1).val ∧ (i 1).val < win3_3.index t (1 : Fin 2) * 256 + 256; omega

/-- THE RESULT ARRAY after the step. -/
theorem result_array (c : Dev nD) : (dat3 V c).arrAt 3 cfg3.N = result V c :=
  (dat3 V c).arrAt_eq_of_cover 3 (result V c) (fun t _ => flushed_result V c t) (cover_result)

end Cert.KernelIdeal.FinalStep

end
-- ==== Proof.KernelChain.lean ====
import proofs.«106384_j83562883711802_2_alg».proof.Proof.Gen.KernelIdeal.Frame
import proofs.«106384_j83562883711802_2_alg».proof.Proof.HopSpec
import proofs.«106384_j83562883711802_2_alg».proof.Proof.Hop0
import proofs.«106384_j83562883711802_2_alg».proof.Proof.Hop1
import proofs.«106384_j83562883711802_2_alg».proof.Proof.Hop2
import proofs.«106384_j83562883711802_2_alg».proof.Proof.FinalStep
import Idealize.ShloMosaic.Lib.StableHlo.Run
import Idealize.ShloMosaic.Lib.Pipeline.Value

/-!
The blocked program's buffers between its steps, as functions of its five arguments.

The program computes each node's factor from its out-degree, then three times aggregates the scaled
features along the edges on the host and runs a blocked step that scales the aggregate, adds it to the
running sum and prepares the next aggregate's input, and last runs the blocked weight product. This module
names the whole-array operations the host stretches apply and reads the contents the first step is entered
with.
-/

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Idealize.ShloMosaic.ValueIdx Cert.HopSpec

/-- The gather's start indices: an edge's source node, a negative one counted from the end, as a column. -/
def starts (x3 : IVec S800000 32) : IVec S800000x1 32 :=
  broadcastInDim S800000x1 ![0] bcast_S800000_S800000x1_0
    (select (cmpi .slt x3 (broadcastInDim S800000 ![] bcast_S_S800000 (constantI S_ 32 0#32)))
      (addi x3 (broadcastInDim S800000 ![] bcast_S_S800000 (constantI S_ 32 50000#32))) x3)

/-- One aggregation along the edges: gather each edge's source row, add it into the edge's target row. -/
def aggregate (x3 x4 : IVec S800000 32) (h : SN.Idx → EReal) : SN.Idx → EReal :=
  Host.scatterAdd (F := Ideal) (φ := .f32) scatter_S50000x256_S800000x1_S800000x256_1_0_0_1
    (broadcastInDim S50000x256 ![] bcast_S_S50000x256 (constant (F := Ideal) S_ .f32 0x00000000#32))
    (broadcastInDim S800000x1 ![0] bcast_S800000_S800000x1_0 x4)
    (Host.gather gather_S50000x256_S800000x1_S800000x256_1_0_n_n_0_1_1256 h (starts x3))

/-- The out-degree counted in integers and converted to a float. -/
def degree (x3 : IVec S800000 32) : S50000.Idx → EReal :=
  sitofp (F := Ideal) .f32 (Host.scatter scatter_S50000_S800000x1_S800000_n_0_0_1 IntOp.addi
    (broadcastInDim S50000 ![] bcast_S_S50000 (constantI S_ 32 0#32))
    (broadcastInDim S800000x1 ![0] bcast_S800000_S800000x1_0 x3)
    (broadcastInDim S800000 ![] bcast_S_S800000 (constantI S_ 32 1#32)))

/-- A node's factor: its degree clamped below at 1, to the power -1/2, as a column. -/
def factors (deg : S50000.Idx → EReal) : SC.Idx → EReal :=
  broadcastInDim S50000x1 ![0] bcast_S50000_S50000x1_0
    (Host.powf (F := Ideal) (φ := .f32)
      (maximumf (broadcastInDim S50000 ![] bcast_S_S50000 (constant (F := Ideal) S_ .f32 0x3F800000#32)) deg)
      (broadcastInDim S50000 ![] bcast_S_S50000 (constant (F := Ideal) S_ .f32 0xBF000000#32)))

/-- A column repeated along the 256 columns and multiplied in is the row scaling. -/
theorem mulf_columns (a : SN.Idx → EReal) (n : SC.Idx → EReal) :
    mulf (F := Ideal) (φ := .f32) a (broadcastInDim S50000x256 ![0, 1] bcast_S50000x1_S50000x256_0_1 n) = rowScale a n := by
  funext i
  show a i * broadcastInDim S50000x256 ![0, 1] bcast_S50000x1_S50000x256_0_1 n i = a i * n (rowOf i)
  rw [broadcastInDim_apply _ bcast_S50000x1_S50000x256_0_1 n i (rowOf i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]

variable (m : (ℓ : Loc nD τ sig) → Buf (Elt Ideal) ℓ) (ρ : Dev nD → PrngReg) (c : Dev nD)

/-- The node features. -/
abbrev feat : SN.Idx → EReal := m ((c : Thread nD τ).loc main_arg0)
/-- The weight matrix. -/
abbrev wts : SW.Idx → EReal := m ((c : Thread nD τ).loc main_arg1)
/-- The bias. -/
abbrev bias : SB.Idx → EReal := m ((c : Thread nD τ).loc main_arg2)
/-- The edges' source nodes. -/
abbrev src : IVec S800000 32 := m ((c : Thread nD τ).loc main_arg3)
/-- The edges' target nodes. -/
abbrev dst : IVec S800000 32 := m ((c : Thread nD τ).loc main_arg4)

/-- The nodes' factors. -/
def nrm : SC.Idx → EReal := factors (degree (src m c))

/-! ## The values between the steps -/

/-- The first aggregate. -/
def agg1 : SN.Idx → EReal := aggregate (src m c) (dst m c) (rowScale (feat m c) (nrm m c))
/-- The first hop's features. -/
def hop1 : SN.Idx → EReal := rowScale (agg1 m c) (nrm m c)
/-- The second aggregate. -/
def agg2 : SN.Idx → EReal := aggregate (src m c) (dst m c) (rowScale (hop1 m c) (nrm m c))
/-- The second hop's features. -/
def hop2 : SN.Idx → EReal := rowScale (agg2 m c) (nrm m c)
/-- The third aggregate. -/
def agg3 : SN.Idx → EReal := aggregate (src m c) (dst m c) (rowScale (hop2 m c) (nrm m c))
/-- The third hop's features. -/
def hop3 : SN.Idx → EReal := rowScale (agg3 m c) (nrm m c)
/-- The bias times four, as the host computes it. -/
def bias4 : SB.Idx → EReal :=
  mulf (F := Ideal) (φ := .f32) (bias m c) (broadcastInDim S256 ![] bcast_S_S256 (constant (F := Ideal) S_ .f32 0x40800000#32))

/-- The host's bias times four, entry by entry. -/
theorem bias4_apply : bias4 m c = fun j => bias m c j * Ideal.ofBits .f32 0x40800000#32 := by
  funext j
  show bias m c j * broadcastInDim S256 ![] bcast_S_S256 (constant (F := Ideal) S_ .f32 0x40800000#32) j = _
  rw [broadcastInDim_apply _ bcast_S_S256 _ j ix0 (fun a => a.elim0)]
  rfl

/-! ## Entering the first step: the arguments as launched, the factors, the first aggregate -/

theorem w3_arg0 : (W3 m ρ c (Proc.devRef .tc main_arg0) : SN.Idx → EReal) = feat m c := by
  show StableHlo.after hostOps0_2 (StableHlo.after hostOps0_1 (StableHlo.after hostOps0 (W0 m ρ c))) (Proc.devRef .tc main_arg0) = _
  after_results
theorem w3_arg1 : (W3 m ρ c (Proc.devRef .tc main_arg1) : SW.Idx → EReal) = wts m c := by
  show StableHlo.after hostOps0_2 (StableHlo.after hostOps0_1 (StableHlo.after hostOps0 (W0 m ρ c))) (Proc.devRef .tc main_arg1) = _
  after_results
theorem w3_arg2 : (W3 m ρ c (Proc.devRef .tc main_arg2) : SB.Idx → EReal) = bias m c := by
  show StableHlo.after hostOps0_2 (StableHlo.after hostOps0_1 (StableHlo.after hostOps0 (W0 m ρ c))) (Proc.devRef .tc main_arg2) = _
  after_results
theorem w3_arg3 : (W3 m ρ c (Proc.devRef .tc main_arg3) : IVec S800000 32) = src m c := by
  show StableHlo.after hostOps0_2 (StableHlo.after hostOps0_1 (StableHlo.after hostOps0 (W0 m ρ c))) (Proc.devRef .tc main_arg3) = _
  after_results
theorem w3_arg4 : (W3 m ρ c (Proc.devRef .tc main_arg4) : IVec S800000 32) = dst m c := by
  show StableHlo.after hostOps0_2 (StableHlo.after hostOps0_1 (StableHlo.after hostOps0 (W0 m ρ c))) (Proc.devRef .tc main_arg4) = _
  after_results
theorem w3_factors : (W3 m ρ c (Proc.devRef .tc main_v8) : SC.Idx → EReal) = nrm m c := by
  show StableHlo.after hostOps0_2 (StableHlo.after hostOps0_1 (StableHlo.after hostOps0 (W0 m ρ c))) (Proc.devRef .tc main_v8) = _
  after_results
  rfl
set_option maxHeartbeats 4000000 in
theorem w3_agg : (W3 m ρ c (Proc.devRef .tc main_v22) : SN.Idx → EReal) = agg1 m c := by
  unfold agg1
  rw [← mulf_columns]
  show StableHlo.after hostOps0_2 (StableHlo.after hostOps0_1 (StableHlo.after hostOps0 (W0 m ρ c))) (Proc.devRef .tc main_v22) = _
  after_results_simp
  rfl

/-! ## Through step 0 -/

theorem w4_sum : (W4 m ρ c (Proc.devRef .tc main_v23_0) : SN.Idx → EReal) = accum (feat m c) (hop1 m c) := by
  refine (W4_arr m ρ c 3).trans ((Hop0.sum_array (V3 m ρ) c).trans ?_)
  show accum (W3 m ρ c (Proc.devRef .tc main_arg0)) (rowScale (W3 m ρ c (Proc.devRef .tc main_v22)) (W3 m ρ c (Proc.devRef .tc main_v8))) = _
  rw [w3_arg0, w3_agg, w3_factors]
  rfl
theorem w4_next : (W4 m ρ c (Proc.devRef .tc main_v23_1) : SN.Idx → EReal) = rowScale (hop1 m c) (nrm m c) := by
  refine (W4_arr m ρ c 4).trans ((Hop0.next_array (V3 m ρ) c).trans ?_)
  show rowScale (rowScale (W3 m ρ c (Proc.devRef .tc main_v22)) (W3 m ρ c (Proc.devRef .tc main_v8))) (W3 m ρ c (Proc.devRef .tc main_v8)) = _
  rw [w3_agg, w3_factors]
  rfl
theorem w4_factors : (W4 m ρ c (Proc.devRef .tc main_v8) : SC.Idx → EReal) = nrm m c :=
  (W4_arr m ρ c 1).trans (((dat0 (V3 m ρ) c).arrAt_in 1 rfl _).trans ((A_eq0 (V3 m ρ) c 1).trans (w3_factors m ρ c)))
theorem w4_arg1 : (W4 m ρ c (Proc.devRef .tc main_arg1) : SW.Idx → EReal) = wts m c :=
  (W4_of_ne m ρ c main_arg1 (by decide)).trans (w3_arg1 m ρ c)
theorem w4_arg2 : (W4 m ρ c (Proc.devRef .tc main_arg2) : SB.Idx → EReal) = bias m c :=
  (W4_of_ne m ρ c main_arg2 (by decide)).trans (w3_arg2 m ρ c)
theorem w4_arg3 : (W4 m ρ c (Proc.devRef .tc main_arg3) : IVec S800000 32) = src m c :=
  (W4_of_ne m ρ c main_arg3 (by decide)).trans (w3_arg3 m ρ c)
theorem w4_arg4 : (W4 m ρ c (Proc.devRef .tc main_arg4) : IVec S800000 32) = dst m c :=
  (W4_of_ne m ρ c main_arg4 (by decide)).trans (w3_arg4 m ρ c)

/-! ## Through the host stretch before the next step -/

set_option maxHeartbeats 4000000 in
theorem w5_agg : (W5 m ρ c (Proc.devRef .tc main_v34) : SN.Idx → EReal) = agg2 m c := by
  show StableHlo.after hostOps1 (W4 m ρ c) (Proc.devRef .tc main_v34) = _
  after_results_simp
  rw [w4_next, w4_arg3, w4_arg4]
  rfl
theorem w5_sum : (W5 m ρ c (Proc.devRef .tc main_v23_0) : SN.Idx → EReal) = accum (feat m c) (hop1 m c) := by
  show StableHlo.after hostOps1 (W4 m ρ c) (Proc.devRef .tc main_v23_0) = _
  after_results
  exact w4_sum m ρ c
theorem w5_factors : (W5 m ρ c (Proc.devRef .tc main_v8) : SC.Idx → EReal) = nrm m c := by
  show StableHlo.after hostOps1 (W4 m ρ c) (Proc.devRef .tc main_v8) = _
  after_results
  exact w4_factors m ρ c
theorem w5_arg1 : (W5 m ρ c (Proc.devRef .tc main_arg1) : SW.Idx → EReal) = wts m c := by
  show StableHlo.after hostOps1 (W4 m ρ c) (Proc.devRef .tc main_arg1) = _
  after_results
  exact w4_arg1 m ρ c
theorem w5_arg2 : (W5 m ρ c (Proc.devRef .tc main_arg2) : SB.Idx → EReal) = bias m c := by
  show StableHlo.after hostOps1 (W4 m ρ c) (Proc.devRef .tc main_arg2) = _
  after_results
  exact w4_arg2 m ρ c
theorem w5_arg3 : (W5 m ρ c (Proc.devRef .tc main_arg3) : IVec S800000 32) = src m c := by
  show StableHlo.after hostOps1 (W4 m ρ c) (Proc.devRef .tc main_arg3) = _
  after_results
  exact w4_arg3 m ρ c
theorem w5_arg4 : (W5 m ρ c (Proc.devRef .tc main_arg4) : IVec S800000 32) = dst m c := by
  show StableHlo.after hostOps1 (W4 m ρ c) (Proc.devRef .tc main_arg4) = _
  after_results
  exact w4_arg4 m ρ c

/-! ## Through step 1 -/

theorem w6_sum : (W6 m ρ c (Proc.devRef .tc main_v35_0) : SN.Idx → EReal) = accum (accum (feat m c) (hop1 m c)) (hop2 m c) := by
  refine (W6_arr m ρ c 3).trans ((Hop1.sum_array (V5 m ρ) c).trans ?_)
  show accum (W5 m ρ c (Proc.devRef .tc main_v23_0)) (rowScale (W5 m ρ c (Proc.devRef .tc main_v34)) (W5 m ρ c (Proc.devRef .tc main_v8))) = _
  rw [w5_sum, w5_agg, w5_factors]
  rfl
theorem w6_next : (W6 m ρ c (Proc.devRef .tc main_v35_1) : SN.Idx → EReal) = rowScale (hop2 m c) (nrm m c) := by
  refine (W6_arr m ρ c 4).trans ((Hop1.next_array (V5 m ρ) c).trans ?_)
  show rowScale (rowScale (W5 m ρ c (Proc.devRef .tc main_v34)) (W5 m ρ c (Proc.devRef .tc main_v8))) (W5 m ρ c (Proc.devRef .tc main_v8)) = _
  rw [w5_agg, w5_factors]
  rfl
theorem w6_factors : (W6 m ρ c (Proc.devRef .tc main_v8) : SC.Idx → EReal) = nrm m c :=
  (W6_arr m ρ c 1).trans (((dat1 (V5 m ρ) c).arrAt_in 1 rfl _).trans ((A_eq1 (V5 m ρ) c 1).trans (w5_factors m ρ c)))
theorem w6_arg1 : (W6 m ρ c (Proc.devRef .tc main_arg1) : SW.Idx → EReal) = wts m c :=
  (W6_of_ne m ρ c main_arg1 (by decide)).trans (w5_arg1 m ρ c)
theorem w6_arg2 : (W6 m ρ c (Proc.devRef .tc main_arg2) : SB.Idx → EReal) = bias m c :=
  (W6_of_ne m ρ c main_arg2 (by decide)).trans (w5_arg2 m ρ c)
theorem w6_arg3 : (W6 m ρ c (Proc.devRef .tc main_arg3) : IVec S800000 32) = src m c :=
  (W6_of_ne m ρ c main_arg3 (by decide)).trans (w5_arg3 m ρ c)
theorem w6_arg4 : (W6 m ρ c (Proc.devRef .tc main_arg4) : IVec S800000 32) = dst m c :=
  (W6_of_ne m ρ c main_arg4 (by decide)).trans (w5_arg4 m ρ c)

/-! ## Through the host stretch before the next step -/

set_option maxHeartbeats 4000000 in
theorem w7_agg : (W7 m ρ c (Proc.devRef .tc main_v46) : SN.Idx → EReal) = agg3 m c := by
  show StableHlo.after hostOps2 (W6 m ρ c) (Proc.devRef .tc main_v46) = _
  after_results_simp
  rw [w6_next, w6_arg3, w6_arg4]
  rfl
theorem w7_sum : (W7 m ρ c (Proc.devRef .tc main_v35_0) : SN.Idx → EReal) = accum (accum (feat m c) (hop1 m c)) (hop2 m c) := by
  show StableHlo.after hostOps2 (W6 m ρ c) (Proc.devRef .tc main_v35_0) = _
  after_results
  exact w6_sum m ρ c
theorem w7_factors : (W7 m ρ c (Proc.devRef .tc main_v8) : SC.Idx → EReal) = nrm m c := by
  show StableHlo.after hostOps2 (W6 m ρ c) (Proc.devRef .tc main_v8) = _
  after_results
  exact w6_factors m ρ c
theorem w7_arg1 : (W7 m ρ c (Proc.devRef .tc main_arg1) : SW.Idx → EReal) = wts m c := by
  show StableHlo.after hostOps2 (W6 m ρ c) (Proc.devRef .tc main_arg1) = _
  after_results
  exact w6_arg1 m ρ c
theorem w7_arg2 : (W7 m ρ c (Proc.devRef .tc main_arg2) : SB.Idx → EReal) = bias m c := by
  show StableHlo.after hostOps2 (W6 m ρ c) (Proc.devRef .tc main_arg2) = _
  after_results
  exact w6_arg2 m ρ c

/-! ## Through step 2 -/

theorem w8_sum : (W8 m ρ c (Proc.devRef .tc main_v47) : SN.Idx → EReal) = accum (accum (accum (feat m c) (hop1 m c)) (hop2 m c)) (hop3 m c) := by
  refine (W8_arr m ρ c 3).trans ((Hop2.sum_array (V7 m ρ) c).trans ?_)
  show accum (W7 m ρ c (Proc.devRef .tc main_v35_0)) (rowScale (W7 m ρ c (Proc.devRef .tc main_v46)) (W7 m ρ c (Proc.devRef .tc main_v8))) = _
  rw [w7_sum, w7_agg, w7_factors]
  rfl
theorem w8_arg1 : (W8 m ρ c (Proc.devRef .tc main_arg1) : SW.Idx → EReal) = wts m c :=
  (W8_of_ne m ρ c main_arg1 (by decide)).trans (w7_arg1 m ρ c)
theorem w8_arg2 : (W8 m ρ c (Proc.devRef .tc main_arg2) : SB.Idx → EReal) = bias m c :=
  (W8_of_ne m ρ c main_arg2 (by decide)).trans (w7_arg2 m ρ c)

/-! ## The bias times four, and the last step -/

theorem w9_sum : (W9 m ρ c (Proc.devRef .tc main_v47) : SN.Idx → EReal) = accum (accum (accum (feat m c) (hop1 m c)) (hop2 m c)) (hop3 m c) := by
  show StableHlo.after hostOps3 (W8 m ρ c) (Proc.devRef .tc main_v47) = _
  after_results
  exact w8_sum m ρ c
theorem w9_arg1 : (W9 m ρ c (Proc.devRef .tc main_arg1) : SW.Idx → EReal) = wts m c := by
  show StableHlo.after hostOps3 (W8 m ρ c) (Proc.devRef .tc main_arg1) = _
  after_results
  exact w8_arg1 m ρ c
theorem w9_bias4 : (W9 m ρ c (Proc.devRef .tc main_v49) : SB.Idx → EReal) = bias4 m c := by
  show StableHlo.after hostOps3 (W8 m ρ c) (Proc.devRef .tc main_v49) = _
  after_results
  rw [w8_arg2]
  rfl

/-- THE RESULT of the blocked program: the rectified weight product of the accumulated features, with
    four biases. -/
theorem result_eq : (W10 m ρ c (Proc.devRef .tc main_v50) : SN.Idx → EReal)
    = fused (feat m c) (hop1 m c) (hop2 m c) (hop3 m c) (wts m c) (bias m c) := by
  refine (W10_arr m ρ c 3).trans ((FinalStep.result_array (V9 m ρ) c).trans ?_)
  show biased (W9 m ρ c (Proc.devRef .tc main_v47)) (W9 m ρ c (Proc.devRef .tc main_arg1)) (W9 m ρ c (Proc.devRef .tc main_v49)) = _
  rw [w9_sum, w9_arg1, w9_bias4, fused_eq_biased, bias4_apply]

end Cert.KernelIdeal.Chain

end
-- ==== Proof.RealEntries.lean ====
import Idealize.ShloMosaic.PureOps.Ideal
import Idealize.ShloMosaic.PureOps.ShapeOps
import Idealize.ShloMosaic.PureOps.Contract
import proofs.«106384_j83562883711802_2_alg».proof.Proof.HopSpec

/-!
Operations that keep every entry a real number: reading entries of a real array at computed places (a
gather), and adding finitely many real updates into a real array (the accumulating scatter).
-/

noncomputable section

namespace Cert.RealEntries

open Idealize.ShloMosaic Cert.HopSpec

/-- A gather reads entries of its operand, so it keeps them real. -/
theorem gather_real {s si t : Shape} {w : Nat} (d : GatherDims s si t) (x : s.Idx → EReal) (idx : IVec si w)
    (hx : AllReal x) : AllReal (Host.gather d x idx) := fun _ => hx _

/-- The accumulating scatter adds finitely many updates to each operand entry. -/
theorem scatterAdd_real {s si u : Shape} {w : Nat} (d : ScatterDims s si u) (z : s.Idx → EReal) (idx : IVec si w)
    (upd : u.Idx → EReal) (hz : AllReal z) (hu : AllReal upd) :
    AllReal (Host.scatterAdd (F := Ideal) (φ := .f32) d z idx upd) := fun i => by
  show ∃ r : ℝ, Ideal.hostScatterAdd d z idx upd i = r
  unfold Ideal.hostScatterAdd
  obtain ⟨a, ha⟩ := hz i
  obtain ⟨b, hb⟩ := Cert.HopAlgebra.sum_real (Finset.univ.filter (fun j => d.resultIdx? j idx = some i)) upd (fun j _ => hu j)
  exact ⟨a + b, by rw [ha, hb, EReal.coe_add]⟩

end Cert.RealEntries

end
-- ==== Proof.DegreeCount.lean ====
import Mathlib.Data.BitVec
import Idealize.ShloMosaic.PureOps.Ideal
import Idealize.ShloMosaic.PureOps.Ideal.Laws
import Idealize.ShloMosaic.PureOps.ShapeOps
import Idealize.ShloMosaic.PureOps.Contract
import proofs.«106384_j83562883711802_2_alg».proof.Proof.HopAlgebra

/-!
The out-degree of a node, counted in two ways.

One program scatters the integer 1 with an integer `add` body into a vector of integer zeros and converts
the result to a float; the other scatters the float 1.0 with a float `add`. Both results at node `i` are
the number of edges whose scatter index lands on `i`: the integer count cannot wrap because there are
fewer than 2³¹ edges, and converting an integer to a float is exact on the extended reals.
-/

noncomputable section

namespace Cert.DegreeCount

open Idealize.ShloMosaic

variable {s si u : Shape} {w : Nat}

/-- One step of the integer scatter's fold over a list of update positions: at `i` the running value
    grows by every listed update that lands on `i`. -/
theorem fold_addi (d : ScatterDims s si u) (idx : IVec si w) (upd : u.Idx → BitVec 32) (i : s.Idx)
    (L : List (Fin u.numel)) (x : s.Idx → BitVec 32) :
    (L.foldl (fun r n =>
        match d.resultIdx? (u.rowMajor.symm n) idx with
        | some i₀ => fun i' => if i' = i₀ then IntOp.addi (r i₀) (upd (u.rowMajor.symm n)) else r i'
        | none => r) x) i
      = x i + (L.map fun n => if d.resultIdx? (u.rowMajor.symm n) idx = some i then upd (u.rowMajor.symm n) else 0).sum := by
  induction L generalizing x with
  | nil => simp
  | cons n L ih =>
    rw [List.foldl_cons, ih, List.map_cons, List.sum_cons, ← add_assoc]
    congr 1
    cases hr : d.resultIdx? (u.rowMajor.symm n) idx with
    | none => simp
    | some i₀ =>
      by_cases hi : i = i₀
      · subst hi; simp [IntOp.addi]
      · have : ¬ (some i₀ = some i) := fun h => hi (Option.some.inj h).symm
        simp [hi, this]

/-- The integer scatter with an `add` body, read at an index: the operand's element plus the sum of the
    updates whose result index is that element. -/
theorem scatter_addi_apply (d : ScatterDims s si u) (x : s.Idx → BitVec 32) (idx : IVec si w)
    (upd : u.Idx → BitVec 32) (i : s.Idx) :
    Host.scatter d IntOp.addi x idx upd i
      = x i + ∑ j ∈ Finset.univ.filter (fun j => d.resultIdx? j idx = some i), upd j := by
  refine (fold_addi d idx upd i (List.finRange u.numel) x).trans ?_
  congr 1
  rw [Finset.sum_filter, ← Equiv.sum_comp u.rowMajor.symm, ← List.sum_ofFn, List.ofFn_eq_map]

/-- The number of update positions is the update shape's number of elements. -/
theorem card_filter_le (d : ScatterDims s si u) (idx : IVec si w) (i : s.Idx) :
    (Finset.univ.filter (fun j : u.Idx => d.resultIdx? j idx = some i)).card ≤ u.numel := by
  calc _ ≤ (Finset.univ : Finset u.Idx).card := Finset.card_filter_le _ _
    _ = Fintype.card u.Idx := rfl
    _ = Fintype.card (Fin u.numel) := Fintype.card_congr u.rowMajor
    _ = u.numel := Fintype.card_fin _

/-- Scattering integer ones into integer zeros and converting to a float gives, at every node, the
    number of updates landing there as a real number. -/
theorem int_count (d : ScatterDims s si u) (idx : IVec si w) (hu : u.numel < 2 ^ 31)
    (z : s.Idx → BitVec 32) (hz : ∀ i, z i = 0#32) (o : u.Idx → BitVec 32) (ho : ∀ j, o j = 1#32) (i : s.Idx) :
    sitofp (F := Ideal) .f32 (Host.scatter d IntOp.addi z idx o) i
      = (((Finset.univ.filter (fun j : u.Idx => d.resultIdx? j idx = some i)).card : ℝ) : EReal) := by
  have hc := card_filter_le d idx i
  set n := (Finset.univ.filter (fun j : u.Idx => d.resultIdx? j idx = some i)).card with hn
  have hval : Host.scatter d IntOp.addi z idx o i = BitVec.ofNat 32 n := by
    rw [scatter_addi_apply, hz, BitVec.zero_add, Finset.sum_congr rfl (fun j _ => ho j), Finset.sum_const, ← hn,
      nsmul_eq_mul, BitVec.mul_one]
    rfl
  show ((((Host.scatter d IntOp.addi z idx o i).toInt : ℤ) : ℝ) : EReal) = _
  rw [hval]
  have h31 : (2 : ℕ) ^ 31 = 2147483648 := by norm_num
  have h32 : (2 : ℕ) ^ 32 = 4294967296 := by norm_num
  have hlt : n < 2147483648 := by omega
  have htn : (BitVec.ofNat 32 n).toNat = n := by
    rw [BitVec.toNat_ofNat, h32]; exact Nat.mod_eq_of_lt (by omega)
  have : (BitVec.ofNat 32 n).toInt = (n : ℤ) := by
    rw [BitVec.toInt_eq_toNat_of_lt (by rw [htn, h32]; omega), htn]
  rw [this]; norm_cast

/-- Scattering float ones into float zeros with a float `add` gives the same count. -/
theorem float_count (d : ScatterDims s si u) (idx : IVec si w)
    (z : s.Idx → EReal) (hz : ∀ i, z i = 0) (o : u.Idx → EReal) (ho : ∀ j, o j = 1) (i : s.Idx) :
    Host.scatterAdd (F := Ideal) (φ := .f32) d z idx o i
      = (((Finset.univ.filter (fun j : u.Idx => d.resultIdx? j idx = some i)).card : ℝ) : EReal) := by
  show Ideal.hostScatterAdd d z idx o i = _
  unfold Ideal.hostScatterAdd
  rw [hz, zero_add, Finset.sum_congr rfl (fun j _ => ho j)]
  have : (1 : EReal) = ((1 : ℝ) : EReal) := rfl
  rw [this, ← Cert.HopAlgebra.coe_sum, Finset.sum_const, nsmul_eq_mul, mul_one]

/-- The two degree computations agree. -/
theorem int_eq_float (d : ScatterDims s si u) (idx : IVec si w) (hu : u.numel < 2 ^ 31)
    (z : s.Idx → BitVec 32) (hz : ∀ i, z i = 0#32) (o : u.Idx → BitVec 32) (ho : ∀ j, o j = 1#32)
    (zf : s.Idx → EReal) (hzf : ∀ i, zf i = 0) (of : u.Idx → EReal) (hof : ∀ j, of j = 1) :
    sitofp (F := Ideal) .f32 (Host.scatter d IntOp.addi z idx o)
      = Host.scatterAdd (F := Ideal) (φ := .f32) d zf idx of := by
  funext i
  rw [int_count d idx hu z hz o ho i, float_count d idx zf hzf of hof i]

end Cert.DegreeCount

end
-- ==== Proof.RefStages.lean ====
import proofs.«106384_j83562883711802_2_alg».proof.Defs
import proofs.«106384_j83562883711802_2_alg».proof.Proof.Gen.ReferenceIdeal.Read
import proofs.«106384_j83562883711802_2_alg».proof.Proof.HopSpec
import proofs.«106384_j83562883711802_2_alg».proof.Proof.RealEntries
import proofs.«106384_j83562883711802_2_alg».proof.Proof.DegreeCount

/-!
The reference program's stages, as functions of its arguments.

Each hop scales the features' rows by the nodes' factors, aggregates along the edges, and scales again;
the scaled aggregate is the hop's features, which are multiplied by the weights, given the bias, and added
to the result. The result is the rectified sum of the four products: the per-hop form.
-/

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.HopSpec

variable (x0 : SN.Idx → EReal) (x1 : SW.Idx → EReal) (x2 : SB.Idx → EReal) (x3 x4 : IVec S800000 32)

/-- A column repeated along the 256 columns and multiplied in is the row scaling. -/
theorem mulf_columns (a : SN.Idx → EReal) (n : SC.Idx → EReal) :
    mulf (F := Ideal) (φ := .f32) a (broadcastInDim S50000x256 ![0, 1] bcast_S50000x1_S50000x256_0_1 n) = rowScale a n := by
  funext i
  show a i * broadcastInDim S50000x256 ![0, 1] bcast_S50000x1_S50000x256_0_1 n i = a i * n (rowOf i)
  rw [broadcastInDim_apply _ bcast_S50000x1_S50000x256_0_1 n i (rowOf i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]

/-! ## The chain of hops: every scaling stage is a row scaling by the nodes' factors -/

theorem scaled0 : val_main_v13 (F := Ideal) x0 x3 = rowScale x0 (val_main_v7 (F := Ideal) x3) := by
  unfold val_main_v13 val_main_v12; exact mulf_columns _ _
theorem hop1 : val_main_v25 (F := Ideal) x0 x3 x4 = rowScale (val_main_v23 (F := Ideal) x0 x3 x4) (val_main_v7 (F := Ideal) x3) := by
  unfold val_main_v25 val_main_v24; exact mulf_columns _ _
theorem scaled1 : val_main_v34 (F := Ideal) x0 x3 x4 = rowScale (val_main_v25 (F := Ideal) x0 x3 x4) (val_main_v7 (F := Ideal) x3) := by
  unfold val_main_v34 val_main_v33; exact mulf_columns _ _
theorem hop2 : val_main_v46 (F := Ideal) x0 x3 x4 = rowScale (val_main_v44 (F := Ideal) x0 x3 x4) (val_main_v7 (F := Ideal) x3) := by
  unfold val_main_v46 val_main_v45; exact mulf_columns _ _
theorem scaled2 : val_main_v55 (F := Ideal) x0 x3 x4 = rowScale (val_main_v46 (F := Ideal) x0 x3 x4) (val_main_v7 (F := Ideal) x3) := by
  unfold val_main_v55 val_main_v54; exact mulf_columns _ _
theorem hop3 : val_main_v67 (F := Ideal) x0 x3 x4 = rowScale (val_main_v65 (F := Ideal) x0 x3 x4) (val_main_v7 (F := Ideal) x3) := by
  unfold val_main_v67 val_main_v66; exact mulf_columns _ _

/-! ## The result: a weight product and a bias per summand, summed, rectified -/

theorem result_perHop :
    val_main_v75 (F := Ideal) x0 x1 x2 x3 x4
      = perHop x0 (val_main_v25 (F := Ideal) x0 x3 x4) (val_main_v46 (F := Ideal) x0 x3 x4)
          (val_main_v67 (F := Ideal) x0 x3 x4) x1 x2 := by
  funext i
  rw [val_main_v75_apply, val_main_call1_v0_apply, val_main_call1_cst_apply, val_main_v74_apply,
    val_main_v73_apply, val_main_v72_apply, val_main_cst_13_apply, val_main_v71_apply, val_main_v70_apply,
    val_main_v69_apply, val_main_v68_apply,
    val_main_v53_apply, val_main_v52_apply, val_main_v51_apply, val_main_cst_9_apply, val_main_v50_apply,
    val_main_v49_apply, val_main_v48_apply, val_main_v47_apply,
    val_main_v32_apply, val_main_v31_apply, val_main_v30_apply, val_main_cst_5_apply, val_main_v29_apply,
    val_main_v28_apply, val_main_v27_apply, val_main_v26_apply,
    val_main_v11_apply, val_main_v10_apply, val_main_v9_apply, val_main_v8_apply]
  rfl

/-! ## Every entry is a real number -/

/-- The array of float zeros the scatters start from. -/
theorem zeros_real : AllReal (val_main_v21 (F := Ideal)) := fun i => by
  refine ⟨0, ?_⟩
  rw [val_main_v21_apply, val_main_cst_4_apply]
  show Ideal.ofBits .f32 0x00000000#32 = _
  rw [Ideal.ofBits_zero_f32]; rfl

/-- A node's degree is the number of edges leaving it. -/
theorem degree_count (i : S50000.Idx) :
    val_main_v3 (F := Ideal) x3 i = (((Finset.univ.filter (fun j : S800000.Idx =>
      scatter_S50000_S800000x1_S800000_n_0_0_1.resultIdx? j (val_main_v2 (F := Ideal) x3) = some i)).card : ℝ) : EReal) := by
  unfold val_main_v3
  refine Cert.DegreeCount.float_count _ _ _ (fun i => ?_) _ (fun j => ?_) i
  · rw [val_main_v1_apply, val_main_cst_0_apply]
    show Ideal.ofBits .f32 0x00000000#32 = _
    rw [Ideal.ofBits_zero_f32]
  · rw [val_main_v0_apply, val_main_cst_apply]
    show Ideal.ofBits .f32 0x3F800000#32 = _
    rw [Cert.HopAlgebra.word_one]

/-- A node's factor, its degree clamped at 1 to the power -1/2, is a real number. -/
theorem factors_real : AllReal (val_main_v7 (F := Ideal) x3) := fun i => by
  rw [val_main_v7_apply, val_main_v6_apply, val_main_v5_apply, val_main_cst_2_apply, val_main_v4_apply,
    val_main_call0_v1_apply, val_main_call0_v0_apply, val_main_cst_1_apply, degree_count]
  show ∃ r : ℝ, Ideal.pow (max (Ideal.ofBits .f32 0x3F800000#32) _) (Ideal.ofBits .f32 0xBF000000#32) = r
  rw [Cert.HopAlgebra.word_one, Cert.HopAlgebra.word_neg_half]
  have h1 : (1 : EReal) = ((1 : ℝ) : EReal) := rfl
  rw [h1, ← EReal.coe_strictMono.monotone.map_max]
  exact ⟨_, rfl⟩

variable (h0 : AllReal x0)
include h0

theorem scaled0_real : AllReal (val_main_v13 (F := Ideal) x0 x3) := by
  rw [scaled0]; exact rowScale_real h0 (factors_real x3)
theorem agg1_real : AllReal (val_main_v23 (F := Ideal) x0 x3 x4) := by
  unfold val_main_v23 val_main_v20
  exact Cert.RealEntries.scatterAdd_real _ _ _ _ zeros_real (Cert.RealEntries.gather_real _ _ _ (scaled0_real x0 x3 h0))
theorem hop1_real : AllReal (val_main_v25 (F := Ideal) x0 x3 x4) := by
  rw [hop1]; exact rowScale_real (agg1_real x0 x3 x4 h0) (factors_real x3)
theorem scaled1_real : AllReal (val_main_v34 (F := Ideal) x0 x3 x4) := by
  rw [scaled1]; exact rowScale_real (hop1_real x0 x3 x4 h0) (factors_real x3)
theorem agg2_real : AllReal (val_main_v44 (F := Ideal) x0 x3 x4) := by
  unfold val_main_v44 val_main_v41
  exact Cert.RealEntries.scatterAdd_real _ _ _ _ (show AllReal (val_main_v42 (F := Ideal)) from zeros_real) (Cert.RealEntries.gather_real _ _ _ (scaled1_real x0 x3 x4 h0))
theorem hop2_real : AllReal (val_main_v46 (F := Ideal) x0 x3 x4) := by
  rw [hop2]; exact rowScale_real (agg2_real x0 x3 x4 h0) (factors_real x3)
theorem scaled2_real : AllReal (val_main_v55 (F := Ideal) x0 x3 x4) := by
  rw [scaled2]; exact rowScale_real (hop2_real x0 x3 x4 h0) (factors_real x3)
theorem agg3_real : AllReal (val_main_v65 (F := Ideal) x0 x3 x4) := by
  unfold val_main_v65 val_main_v62
  exact Cert.RealEntries.scatterAdd_real _ _ _ _ (show AllReal (val_main_v63 (F := Ideal)) from zeros_real) (Cert.RealEntries.gather_real _ _ _ (scaled2_real x0 x3 x4 h0))
theorem hop3_real : AllReal (val_main_v67 (F := Ideal) x0 x3 x4) := by
  rw [hop3]; exact rowScale_real (agg3_real x0 x3 x4 h0) (factors_real x3)

end Cert.ReferenceIdeal.RefValue

end
-- ==== Proof.FiniteInputs.lean ====
import proofs.«106384_j83562883711802_2_alg».proof.Pre_finite_inputs
import proofs.«106384_j83562883711802_2_alg».proof.Proof.HopSpec
import Idealize.ShloMosaic.Lib.ReduceAll
import Idealize.ShloMosaic.Lib.Affine
import Idealize.ShloMosaic.Lib.Pipeline.Value
import Idealize.ShloMosaic.Lib.ValueIdx

/-!
The precondition: every entry of the features, the weights and the bias is a real number.

The precondition is the conjunction, over the three float arguments, of "every entry's absolute value is
below +∞". On the extended reals an entry with that property is neither infinity, so it is a real number.
-/

set_option maxRecDepth 16384

noncomputable section

namespace Cert.FiniteInputs

open Idealize.ShloMosaic Idealize.ShloMosaic.ValueIdx Cert.HopSpec Cert.Pre_finite_inputs

instance : Subsingleton S_.Idx := ⟨fun a b => funext fun d => d.elim0⟩

/-- The word `0x7F800000` is +∞. -/
theorem word_inf : Ideal.ofBits .f32 0x7F800000#32 = ⊤ := by
  simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = r := by
  rw [word_inf] at h
  have hlt : max x (-x) < ⊤ := by
    by_contra hn
    simp [Ideal.cmp, hn] at h
  induction x using EReal.rec with
  | bot => simp at hlt
  | coe r => exact ⟨r, rfl⟩
  | top => simp at hlt

variable [Facts]
open Facts

/-- One conjunct of the precondition, read at an entry. -/
theorem entry_real {S : Shape} (bc : S_.BroadcastsInDim S (![] : Fin 0 → Fin S.rank)) (a : FVec Ideal S .f32) (i : S.Idx)
    (e : cmpf .olt (Host.absf a) (broadcastInDim S ![] bc (constant (F := Ideal) S_ .f32 0x7F800000#32)) i = 1#1) :
    ∃ r : ℝ, a i = r := by
  refine real_of_abs_lt (a i) ?_
  have hb : broadcastInDim S ![] bc (constant (F := Ideal) S_ .f32 0x7F800000#32) i
      = Ideal.ofBits .f32 0x7F800000#32 :=
    (broadcastInDim_apply _ bc _ i ix0 (fun a => a.elim0)).trans rfl
  rw [← hb]
  exact e

/-- Under the precondition the three float arguments hold real numbers only. -/
theorem all_real (a0 : FVec Ideal S50000x256 .f32) (a1 : FVec Ideal S256x256 .f32) (a2 : FVec Ideal S256 .f32)
    (a3 a4 : IVec S800000 32) (h : fn (F := Ideal) a0 a1 a2 a3 a4 = fun _ => 1#1) :
    AllReal a0 ∧ AllReal a1 ∧ AllReal a2 := by
  have h0 := congrFun h ix0
  dsimp only [fn] at h0
  obtain ⟨h01, hC⟩ := IntOp.andi_eq_one.1 h0
  obtain ⟨hA, hB⟩ := IntOp.andi_eq_one.1 h01
  refine ⟨fun i => ?_, fun i => ?_, fun i => ?_⟩
  · exact entry_real bcast_S_S50000x256 a0 i (Host.reduce_andi_all _ _ _ _ _ hA i)
  · exact entry_real bcast_S_S256x256 a1 i (Host.reduce_andi_all _ _ _ _ _ hB i)
  · exact entry_real bcast_S_S256 a2 i (Host.reduce_andi_all _ _ _ _ _ hC i)

end Cert.FiniteInputs

end
-- ==== Proof.Bridge.lean ====
import proofs.«106384_j83562883711802_2_alg».proof.Proof.KernelChain
import proofs.«106384_j83562883711802_2_alg».proof.Proof.RefStages
import proofs.«106384_j83562883711802_2_alg».proof.Proof.FiniteInputs

/-!
The two programs compute one function.

Both spell the aggregation along the edges, the clamp and the power in the same operations, so those
stages agree as whole arrays once the nodes' degrees agree; the degrees agree because a count of fewer than
2³¹ edges is the same number as an integer and as a float. With the hops' features identified, the blocked
program's fused product equals the reference's per-hop sum by distributivity over real entries.
-/

set_option maxRecDepth 16384

noncomputable section

namespace Cert.Bridge

open Idealize.ShloMosaic Idealize.ShloMosaic.ValueIdx Cert.HopSpec
open Cert.ReferenceIdeal.Read Cert.ReferenceIdeal.RefValue

variable (x0 : SN.Idx → EReal) (x1 : SW.Idx → EReal) (x2 : SB.Idx → EReal) (x3 x4 : IVec Cert.KernelIdeal.S800000 32)

/-- The nodes' degrees: the integer count converted to a float is the float count. -/
theorem degree_eq : Cert.KernelIdeal.Chain.degree x3 = val_main_v3 (F := Ideal) x3 := by
  unfold Cert.KernelIdeal.Chain.degree val_main_v3
  refine (Cert.DegreeCount.int_eq_float _ _ (by decide) _ (fun i => ?_) _ (fun j => ?_)
    (val_main_v1 (F := Ideal)) (fun i => ?_) (val_main_v0 (F := Ideal)) (fun j => ?_)).trans rfl
  · exact (broadcastInDim_apply _ Cert.KernelIdeal.Facts₀.bcast_S_S50000 _ i ix0 (fun a => a.elim0)).trans rfl
  · exact (broadcastInDim_apply _ Cert.KernelIdeal.Facts₀.bcast_S_S800000 _ j ix0 (fun a => a.elim0)).trans rfl
  · rw [val_main_v1_apply, val_main_cst_0_apply]
    show Ideal.ofBits .f32 0x00000000#32 = _
    rw [Ideal.ofBits_zero_f32]
  · rw [val_main_v0_apply, val_main_cst_apply]
    show Ideal.ofBits .f32 0x3F800000#32 = _
    rw [Cert.HopAlgebra.word_one]

/-- The nodes' factors agree. -/
theorem factors_eq : Cert.KernelIdeal.Chain.factors (Cert.KernelIdeal.Chain.degree x3) = val_main_v7 (F := Ideal) x3 := by
  rw [degree_eq]
  rfl

/-- The three aggregations are spelt the same way in both programs. -/
theorem aggregate_eq1 (h : SN.Idx → EReal) : Cert.KernelIdeal.Chain.aggregate x3 x4 h
    = Host.scatterAdd (F := Ideal) (φ := .f32) Cert.ReferenceIdeal.scatter_S50000x256_S800000x1_S800000x256_1_0_0_1
        (val_main_v21 (F := Ideal)) (val_main_v22 (F := Ideal) x4)
        (Host.gather Cert.ReferenceIdeal.gather_S50000x256_S800000x1_S800000x256_1_0_n_n_0_1_1256 h (val_main_v19 (F := Ideal) x3)) := rfl
theorem aggregate_eq2 (h : SN.Idx → EReal) : Cert.KernelIdeal.Chain.aggregate x3 x4 h
    = Host.scatterAdd (F := Ideal) (φ := .f32) Cert.ReferenceIdeal.scatter_S50000x256_S800000x1_S800000x256_1_0_0_1
        (val_main_v42 (F := Ideal)) (val_main_v43 (F := Ideal) x4)
        (Host.gather Cert.ReferenceIdeal.gather_S50000x256_S800000x1_S800000x256_1_0_n_n_0_1_1256 h (val_main_v40 (F := Ideal) x3)) := rfl
theorem aggregate_eq3 (h : SN.Idx → EReal) : Cert.KernelIdeal.Chain.aggregate x3 x4 h
    = Host.scatterAdd (F := Ideal) (φ := .f32) Cert.ReferenceIdeal.scatter_S50000x256_S800000x1_S800000x256_1_0_0_1
        (val_main_v63 (F := Ideal)) (val_main_v64 (F := Ideal) x4)
        (Host.gather Cert.ReferenceIdeal.gather_S50000x256_S800000x1_S800000x256_1_0_n_n_0_1_1256 h (val_main_v61 (F := Ideal) x3)) := rfl

/-! ## The hops' features, and the results -/

section Results

open Cert.KernelIdeal Cert.KernelIdeal.Gen Cert.KernelIdeal.Chain Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem nrm_eq : nrm m c = val_main_v7 (F := Ideal) (src m c) := factors_eq _

theorem hop1_eq : Chain.hop1 m c = val_main_v25 (F := Ideal) (feat m c) (src m c) (dst m c) := by
  rw [Cert.ReferenceIdeal.RefValue.hop1]
  unfold Chain.hop1 Chain.agg1
  rw [nrm_eq, aggregate_eq1, ← Cert.ReferenceIdeal.RefValue.scaled0 (feat m c) (src m c)]
  rfl

theorem hop2_eq : Chain.hop2 m c = val_main_v46 (F := Ideal) (feat m c) (src m c) (dst m c) := by
  rw [Cert.ReferenceIdeal.RefValue.hop2]
  unfold Chain.hop2 Chain.agg2
  rw [hop1_eq, nrm_eq, aggregate_eq2, ← Cert.ReferenceIdeal.RefValue.scaled1]
  rfl

theorem hop3_eq : Chain.hop3 m c = val_main_v67 (F := Ideal) (feat m c) (src m c) (dst m c) := by
  rw [Cert.ReferenceIdeal.RefValue.hop3]
  unfold Chain.hop3 Chain.agg3
  rw [hop2_eq, nrm_eq, aggregate_eq3, ← Cert.ReferenceIdeal.RefValue.scaled2]
  rfl

/-- THE TWO RESULTS AGREE when the features, the weights and the bias hold real numbers. -/
theorem results_agree (hpre : AllReal (feat m c) ∧ AllReal (wts m c) ∧ AllReal (bias m c)) :
    val_main_v75 (F := Ideal) (feat m c) (wts m c) (bias m c) (src m c) (dst m c)
      = W10 m ρ c (Proc.devRef .tc main_v50) := by
  rw [Chain.result_eq, result_perHop, hop1_eq, hop2_eq, hop3_eq]
  exact (fused_eq_perHop _ _ _ _ _ _ hpre.1 (hop1_real _ _ _ hpre.1) (hop2_real _ _ _ hpre.1) (hop3_real _ _ _ hpre.1)
    hpre.2.1 hpre.2.2).symm

end Results

end Cert.Bridge

end
-- ==== Proof.lean ====
/-
  The blocked program computes, for a graph of 50000 nodes and 800000 edges, three hops of degree-normalised
  feature propagation and one weight product: each hop aggregates the scaled features along the edges, scales
  the aggregate by the nodes' factors (the out-degree clamped at 1, to the power -1/2) and adds it to a running
  sum; the last step multiplies the sum by the weight matrix once, adds four times the bias and rectifies.
  The reference multiplies the features and each hop's features by the weights separately, adds the bias to
  each product, sums the four and rectifies.

  On the extended reals the two agree: the hops' features are the same arrays in both programs (the same
  operations, and the same degrees, an integer count below 2³¹ being the same number as a float), and the one
  product of the sum equals the sum of the products by distributivity, which holds because under the
  precondition every entry involved is a real number. The three frame claims are the two blocked programs'
  generated frames and the reference's generated run; the idealization rewrote nothing.
-/
import proofs.«106384_j83562883711802_2_alg».proof.Defs
import proofs.«106384_j83562883711802_2_alg».proof.Proof.Gen.Kernel
import proofs.«106384_j83562883711802_2_alg».proof.Proof.Gen.Kernel.Skeleton
import proofs.«106384_j83562883711802_2_alg».proof.Proof.Gen.Kernel.Launch
import proofs.«106384_j83562883711802_2_alg».proof.Proof.Gen.Kernel.Points
import proofs.«106384_j83562883711802_2_alg».proof.Proof.Gen.Kernel.Frame
import proofs.«106384_j83562883711802_2_alg».proof.Proof.Gen.KernelIdeal
import proofs.«106384_j83562883711802_2_alg».proof.Proof.Gen.KernelIdeal.Skeleton
import proofs.«106384_j83562883711802_2_alg».proof.Proof.Gen.KernelIdeal.Launch
import proofs.«106384_j83562883711802_2_alg».proof.Proof.Gen.KernelIdeal.Points
import proofs.«106384_j83562883711802_2_alg».proof.Proof.Gen.KernelIdeal.Frame
import proofs.«106384_j83562883711802_2_alg».proof.Proof.Gen.ReferenceIdeal
import proofs.«106384_j83562883711802_2_alg».proof.Proof.Gen.ReferenceIdeal.Run
import proofs.«106384_j83562883711802_2_alg».proof.Proof.Gen.ReferenceIdeal.Read
import proofs.«106384_j83562883711802_2_alg».proof.Proof.Gen.Pre_finite_inputs
import proofs.«106384_j83562883711802_2_alg».proof.Proof.KernelRun
import proofs.«106384_j83562883711802_2_alg».proof.Proof.Bridge
import Idealize.ShloMosaic.Adequacy
import Idealize.ShloMosaic.Init

noncomputable section

namespace Cert.Proof

open Idealize.ShloMosaic Idealize.ShloMosaic.TcCoe Idealize.SL.Sem

/-- The blocked program at the word level runs and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments unchanged: its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories agreeing on the arguments, under the precondition, both programs run and end with the
    same result array: the blocked program's result buffer after its last step, which is the reference's
    result term of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W10 m ρ c (Proc.devRef .tc Cert.KernelIdeal.main_v50),
    Cert.KernelIdeal.KernelRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2]
  exact Cert.Bridge.results_agree m ρ c (Cert.FiniteInputs.all_real _ _ _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
